-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S32x4096 : Shape := ⟨2, ![32, 4096]⟩

abbrev nBuf : Space → Nat
  | .hbm => 8
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S4096x4096, .bf16⟩
  | .hbm, ⟨5, _⟩ => ⟨S1x4096, .f32⟩
  | .hbm, ⟨6, _⟩ => ⟨S8192x4096, .f32⟩
  | .hbm, ⟨7, _⟩ => ⟨S4x2048x4096, .f32⟩
  | .local _ .vmem, ⟨0, _⟩ => ⟨S32x4096, .f32⟩
  | .local _ .vmem, ⟨1, _⟩ => ⟨S32x4096, .f32⟩
  | .local _ .vmem, ⟨2, _⟩ => ⟨S4096x4096, .bf16⟩
  | .local _ .vmem, ⟨3, _⟩ => ⟨S1x4096, .f32⟩
  | .local _ .vmem, ⟨4, _⟩ => ⟨S32x4096, .f32⟩
  | .local _ .vmem, ⟨5, _⟩ => ⟨S32x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  iota_S32x4096_d1_w32 : S32x4096.Iotas .tc 32 [1]
  rotates_S32x4096_d1 : S32x4096.Rotates 1 none
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S32x4096 : S1x4096.Broadcasts S32x4096
  shapeCasts_S8192x4096_S4x2048x4096 : S8192x4096.ShapeCasts S4x2048x4096
  dot_S32x4096_S4096x4096_S32x4096_1_1_0_0_n_n_wf : DotDims.WF S32x4096 S4096x4096 S32x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S8192x4096.size a
  hwx0_0 : ∀ i : grid0.Coords, EltTy.bits .f32 = 32 ∨ (Rect.block (s := S8192x4096) S32x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x4096.size a ≤ S8192x4096.size a
  hwx0_3 : ∀ i : grid0.Coords, EltTy.bits .f32 = 32 ∨ (Rect.block (s := S8192x4096) S32x4096.size (cc0_transform_3 i) (hinb0_3 i)).WholeWords (EltTy.packing .f32)

variable [Facts₀]

def dot_S32x4096_S4096x4096_S32x4096_1_1_0_0_n_n : DotDims S32x4096 S4096x4096 S32x4096 where
  lhsContracting := [1]
  rhsContracting := [1]
  lhsNonContracting := [0]
  rhsNonContracting := [0]
  lhsBatch := []
  rhsBatch := []
  wf := dot_S32x4096_S4096x4096_S32x4096_1_1_0_0_n_n_wf

abbrev win0_0 : Pipeline.Window sig grid0 :=
  Pipeline.Window.ofSpec (Memref.whole main_v0) S32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4x2048x2048x2x1 : Shape := ⟨5, ![4, 2048, 2048, 2, 1]⟩
abbrev S4x2048x2048x1x1 : Shape := ⟨5, ![4, 2048, 2048, 1, 1]⟩
abbrev S4x2048x2048x1 : Shape := ⟨4, ![4, 2048, 2048, 1]⟩
abbrev S4x2048x1024x2x2 : Shape := ⟨5, ![4, 2048, 1024, 2, 2]⟩
abbrev S4x2048x1024x1x2 : Shape := ⟨5, ![4, 2048, 1024, 1, 2]⟩
abbrev S4x2048x1024x2 : Shape := ⟨4, ![4, 2048, 1024, 2]⟩
abbrev S4x2048x512x2x4 : Shape := ⟨5, ![4, 2048, 512, 2, 4]⟩
abbrev S4x2048x512x1x4 : Shape := ⟨5, ![4, 2048, 512, 1, 4]⟩
abbrev S4x2048x512x4 : Shape := ⟨4, ![4, 2048, 512, 4]⟩
abbrev S4x2048x256x2x8 : Shape := ⟨5, ![4, 2048, 256, 2, 8]⟩
abbrev S4x2048x256x1x8 : Shape := ⟨5, ![4, 2048, 256, 1, 8]⟩
abbrev S4x2048x256x8 : Shape := ⟨4, ![4, 2048, 256, 8]⟩
abbrev S4x2048x128x2x16 : Shape := ⟨5, ![4, 2048, 128, 2, 16]⟩
abbrev S4x2048x128x1x16 : Shape := ⟨5, ![4, 2048, 128, 1, 16]⟩
abbrev S4x2048x128x16 : Shape := ⟨4, ![4, 2048, 128, 16]⟩
abbrev S4x2048x64x2x32 : Shape := ⟨5, ![4, 2048, 64, 2, 32]⟩
abbrev S4x2048x64x1x32 : Shape := ⟨5, ![4, 2048, 64, 1, 32]⟩
abbrev S4x2048x64x32 : Shape := ⟨4, ![4, 2048, 64, 32]⟩
abbrev S4x2048x32x2x64 : Shape := ⟨5, ![4, 2048, 32, 2, 64]⟩
abbrev S4x2048x32x1x64 : Shape := ⟨5, ![4, 2048, 32, 1, 64]⟩
abbrev S4x2048x32x64 : Shape := ⟨4, ![4, 2048, 32, 64]⟩
abbrev S4x2048x16x2x128 : Shape := ⟨5, ![4, 2048, 16, 2, 128]⟩
abbrev S4x2048x16x1x128 : Shape := ⟨5, ![4, 2048, 16, 1, 128]⟩
abbrev S4x2048x16x128 : Shape := ⟨4, ![4, 2048, 16, 128]⟩
abbrev S4x2048x8x2x256 : Shape := ⟨5, ![4, 2048, 8, 2, 256]⟩
abbrev S4x2048x8x1x256 : Shape := ⟨5, ![4, 2048, 8, 1, 256]⟩
abbrev S4x2048x8x256 : Shape := ⟨4, ![4, 2048, 8, 256]⟩
abbrev S4x2048x4x2x512 : Shape := ⟨5, ![4, 2048, 4, 2, 512]⟩
abbrev S4x2048x4x1x512 : Shape := ⟨5, ![4, 2048, 4, 1, 512]⟩
abbrev S4x2048x4x512 : Shape := ⟨4, ![4, 2048, 4, 512]⟩
abbrev S4x2048x2x2x1024 : Shape := ⟨5, ![4, 2048, 2, 2, 1024]⟩
abbrev S4x2048x2x1x1024 : Shape := ⟨5, ![4, 2048, 2, 1, 1024]⟩
abbrev S4x2048x2x1024 : Shape := ⟨4, ![4, 2048, 2, 1024]⟩
abbrev S4x2048x1x2x2048 : Shape := ⟨5, ![4, 2048, 1, 2, 2048]⟩
abbrev S4x2048x1x1x2048 : Shape := ⟨5, ![4, 2048, 1, 1, 2048]⟩
abbrev S4x2048x1x2048 : Shape := ⟨4, ![4, 2048, 1, 2048]⟩
abbrev S1x1x4096 : Shape := ⟨3, ![1, 1, 4096]⟩

abbrev nBuf : Space → Nat
  | .hbm => 145
  | .vmem => 0
  | .smem => 0
  | _ => 0

abbrev hbmTy0_0 (i : Nat) : BufTy := match i % 128 with
  | 0 => ⟨S4x2048x4096, .f32⟩
  | 1 => ⟨S4096x4096, .f32⟩
  | 2 => ⟨S4096, .f32⟩
  | 3 => ⟨S_, .f32⟩
  | 4 => ⟨S_, .f32⟩
  | 5 => ⟨S_, .f32⟩
  | 6 => ⟨S_, .f32⟩
  | 7 => ⟨S4x2048x2048x2x1, .f32⟩
  | 8 => ⟨S4x2048x2048x1x1, .f32⟩
  | 9 => ⟨S4x2048x2048x1, .f32⟩
  | 10 => ⟨S4x2048x2048x1x1, .f32⟩
  | 11 => ⟨S4x2048x2048x1, .f32⟩
  | 12 => ⟨S4x2048x2048x1, .f32⟩
  | 13 => ⟨S4x2048x2048x1, .f32⟩
  | 14 => ⟨S4x2048x2048x1x1, .f32⟩
  | 15 => ⟨S4x2048x2048x1x1, .f32⟩
  | 16 => ⟨S4x2048x2048x2x1, .f32⟩
  | 17 => ⟨S4x2048x4096, .f32⟩
  | 18 => ⟨S4x2048x1024x2x2, .f32⟩
  | 19 => ⟨S4x2048x1024x1x2, .f32⟩
  | 20 => ⟨S4x2048x1024x2, .f32⟩
  | 21 => ⟨S4x2048x1024x1x2, .f32⟩
  | 22 => ⟨S4x2048x1024x2, .f32⟩
  | 23 => ⟨S4x2048x1024x2, .f32⟩
  | 24 => ⟨S4x2048x1024x2, .f32⟩
  | 25 => ⟨S4x2048x1024x1x2, .f32⟩
  | 26 => ⟨S4x2048x1024x1x2, .f32⟩
  | 27 => ⟨S4x2048x1024x2x2, .f32⟩
  | 28 => ⟨S4x2048x4096, .f32⟩
  | 29 => ⟨S4x2048x512x2x4, .f32⟩
  | 30 => ⟨S4x2048x512x1x4, .f32⟩
  | 31 => ⟨S4x2048x512x4, .f32⟩
  | 32 => ⟨S4x2048x512x1x4, .f32⟩
  | 33 => ⟨S4x2048x512x4, .f32⟩
  | 34 => ⟨S4x2048x512x4, .f32⟩
  | 35 => ⟨S4x2048x512x4, .f32⟩
  | 36 => ⟨S4x2048x512x1x4, .f32⟩
  | 37 => ⟨S4x2048x512x1x4, .f32⟩
  | 38 => ⟨S4x2048x512x2x4, .f32⟩
  | 39 => ⟨S4x2048x4096, .f32⟩
  | 40 => ⟨S4x2048x256x2x8, .f32⟩
  | 41 => ⟨S4x2048x256x1x8, .f32⟩
  | 42 => ⟨S4x2048x256x8, .f32⟩
  | 43 => ⟨S4x2048x256x1x8, .f32⟩
  | 44 => ⟨S4x2048x256x8, .f32⟩
  | 45 => ⟨S4x2048x256x8, .f32⟩
  | 46 => ⟨S4x2048x256x8, .f32⟩
  | 47 => ⟨S4x2048x256x1x8, .f32⟩
  | 48 => ⟨S4x2048x256x1x8, .f32⟩
  | 49 => ⟨S4x2048x256x2x8, .f32⟩
  | 50 => ⟨S4x2048x4096, .f32⟩
  | 51 => ⟨S4x2048x128x2x16, .f32⟩
  | 52 => ⟨S4x2048x128x1x16, .f32⟩
  | 53 => ⟨S4x2048x128x16, .f32⟩
  | 54 => ⟨S4x2048x128x1x16, .f32⟩
  | 55 => ⟨S4x2048x128x16, .f32⟩
  | 56 => ⟨S4x2048x128x16, .f32⟩
  | 57 => ⟨S4x2048x128x16, .f32⟩
  | 58 => ⟨S4x2048x128x1x16, .f32⟩
  | 59 => ⟨S4x2048x128x1x16, .f32⟩
  | 60 => ⟨S4x2048x128x2x16, .f32⟩
  | 61 => ⟨S4x2048x4096, .f32⟩
  | 62 => ⟨S4x2048x64x2x32, .f32⟩
  | 63 => ⟨S4x2048x64x1x32, .f32⟩
  | 64 => ⟨S4x2048x64x32, .f32⟩
  | 65 => ⟨S4x2048x64x1x32, .f32⟩
  | 66 => ⟨S4x2048x64x32, .f32⟩
  | 67 => ⟨S4x2048x64x32, .f32⟩
  | 68 => ⟨S4x2048x64x32, .f32⟩
  | 69 => ⟨S4x2048x64x1x32, .f32⟩
  | 70 => ⟨S4x2048x64x1x32, .f32⟩
  | 71 => ⟨S4x2048x64x2x32, .f32⟩
  | 72 => ⟨S4x2048x4096, .f32⟩
  | 73 => ⟨S4x2048x32x2x64, .f32⟩
  | 74 => ⟨S4x2048x32x1x64, .f32⟩
  | 75 => ⟨S4x2048x32x64, .f32⟩
  | 76 => ⟨S4x2048x32x1x64, .f32⟩
  | 77 => ⟨S4x2048x32x64, .f32⟩
  | 78 => ⟨S4x2048x32x64, .f32⟩
  | 79 => ⟨S4x2048x32x64, .f32⟩
  | 80 => ⟨S4x2048x32x1x64, .f32⟩
  | 81 => ⟨S4x2048x32x1x64, .f32⟩
  | 82 => ⟨S4x2048x32x2x64, .f32⟩
  | 83 => ⟨S4x2048x4096, .f32⟩
  | 84 => ⟨S4x2048x16x2x128, .f32⟩
  | 85 => ⟨S4x2048x16x1x128, .f32⟩
  | 86 => ⟨S4x2048x16x128, .f32⟩
  | 87 => ⟨S4x2048x16x1x128, .f32⟩
  | 88 => ⟨S4x2048x16x128, .f32⟩
  | 89 => ⟨S4x2048x16x128, .f32⟩
  | 90 => ⟨S4x2048x16x128, .f32⟩
  | 91 => ⟨S4x2048x16x1x128, .f32⟩
  | 92 => ⟨S4x2048x16x1x128, .f32⟩
  | 93 => ⟨S4x2048x16x2x128, .f32⟩
  | 94 => ⟨S4x2048x4096, .f32⟩
  | 95 => ⟨S4x2048x8x2x256, .f32⟩
  | 96 => ⟨S4x2048x8x1x256, .f32⟩
  | 97 => ⟨S4x2048x8x256, .f32⟩
  | 98 => ⟨S4x2048x8x1x256, .f32⟩
  | 99 => ⟨S4x2048x8x256, .f32⟩
  | 100 => ⟨S4x2048x8x256, .f32⟩
  | 101 => ⟨S4x2048x8x256, .f32⟩
  | 102 => ⟨S4x2048x8x1x256, .f32⟩
  | 103 => ⟨S4x2048x8x1x256, .f32⟩
  | 104 => ⟨S4x2048x8x2x256, .f32⟩
  | 105 => ⟨S4x2048x4096, .f32⟩
  | 106 => ⟨S4x2048x4x2x512, .f32⟩
  | 107 => ⟨S4x2048x4x1x512, .f32⟩
  | 108 => ⟨S4x2048x4x512, .f32⟩
  | 109 => ⟨S4x2048x4x1x512, .f32⟩
  | 110 => ⟨S4x2048x4x512, .f32⟩
  | 111 => ⟨S4x2048x4x512, .f32⟩
  | 112 => ⟨S4x2048x4x512, .f32⟩
  | 113 => ⟨S4x2048x4x1x512, .f32⟩
  | 114 => ⟨S4x2048x4x1x512, .f32⟩
  | 115 => ⟨S4x2048x4x2x512, .f32⟩
  | 116 => ⟨S4x2048x4096, .f32⟩
  | 117 => ⟨S4x2048x2x2x1024, .f32⟩
  | 118 => ⟨S4x2048x2x1x1024, .f32⟩
  | 119 => ⟨S4x2048x2x1024, .f32⟩
  | 120 => ⟨S4x2048x2x1x1024, .f32⟩
  | 121 => ⟨S4x2048x2x1024, .f32⟩
  | 122 => ⟨S4x2048x2x1024, .f32⟩
  | 123 => ⟨S4x2048x2x1024, .f32⟩
  | 124 => ⟨S4x2048x2x1x1024, .f32⟩
  | 125 => ⟨S4x2048x2x1x1024, .f32⟩
  | 126 => ⟨S4x2048x2x2x1024, .f32⟩
  | 127 => ⟨S4x2048x4096, .f32⟩
  | _ => ⟨S4x2048x4096, .f32⟩

abbrev hbmTy0_1 (i : Nat) : BufTy := match i % 128 with
  | 0 => ⟨S4x2048x1x2x2048, .f32⟩
  | 1 => ⟨S4x2048x1x1x2048, .f32⟩
  | 2 => ⟨S4x2048x1x2048, .f32⟩
  | 3 => ⟨S4x2048x1x1x2048, .f32⟩
  | 4 => ⟨S4x2048x1x2048, .f32⟩
  | 5 => ⟨S4x2048x1x2048, .f32⟩
  | 6 => ⟨S4x2048x1x2048, .f32⟩
  | 7 => ⟨S4x2048x1x1x2048, .f32⟩
  | 8 => ⟨S4x2048x1x1x2048, .f32⟩
  | 9 => ⟨S4x2048x1x2x2048, .f32⟩
  | 10 => ⟨S4x2048x4096, .f32⟩
  | 11 => ⟨S4x2048x4096, .f32⟩
  | 12 => ⟨S4x2048x4096, .f32⟩
  | 13 => ⟨S4x2048x4096, .f32⟩
  | 14 => ⟨S1x1x4096, .f32⟩
  | 15 => ⟨S4x2048x4096, .f32⟩
  | 16 => ⟨S4x2048x4096, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩

abbrev nD : Nat := 1
abbrev τ : Topo := Topo.v7x

variable {F : FTy → Type} [FloatOps F]

class Facts₀ : Prop where
  shapeCasts_S4x2048x4096_S4x2048x2048x2x1 : S4x2048x4096.ShapeCasts S4x2048x2048x2x1
  slices_S4x2048x2048x2x1_S4x2048x2048x1x1_0_0_0_0_0 : S4x2048x2048x2x1.Slices ![0, 0, 0, 0, 0] S4x2048x2048x1x1
  shapeCasts_S4x2048x2048x1x1_S4x2048x2048x1 : S4x2048x2048x1x1.ShapeCasts S4x2048x2048x1
  slices_S4x2048x2048x2x1_S4x2048x2048x1x1_0_0_0_1_0 : S4x2048x2048x2x1.Slices ![0, 0, 0, 1, 0] S4x2048x2048x1x1
  bcast_S4x2048x2048x1_S4x2048x2048x1x1_0_1_2_4 : S4x2048x2048x1.BroadcastsInDim S4x2048x2048x1x1 (![0, 1, 2, 4] : Fin 4 → Fin S4x2048x2048x1x1.rank)
  concatenates_S4x2048x2048x1x1_S4x2048x2048x1x1_S4x2048x2048x2x1_d3 : Shape.Concatenates [S4x2048x2048x1x1, S4x2048x2048x1x1] S4x2048x2048x2x1 3
  shapeCasts_S4x2048x2048x2x1_S4x2048x4096 : S4x2048x2048x2x1.ShapeCasts S4x2048x4096
  shapeCasts_S4x2048x4096_S4x2048x1024x2x2 : S4x2048x4096.ShapeCasts S4x2048x1024x2x2
  slices_S4x2048x1024x2x2_S4x2048x1024x1x2_0_0_0_0_0 : S4x2048x1024x2x2.Slices ![0, 0, 0, 0, 0] S4x2048x1024x1x2
  shapeCasts_S4x2048x1024x1x2_S4x2048x1024x2 : S4x2048x1024x1x2.ShapeCasts S4x2048x1024x2
  slices_S4x2048x1024x2x2_S4x2048x1024x1x2_0_0_0_1_0 : S4x2048x1024x2x2.Slices ![0, 0, 0, 1, 0] S4x2048x1024x1x2
  bcast_S4x2048x1024x2_S4x2048x1024x1x2_0_1_2_4 : S4x2048x1024x2.BroadcastsInDim S4x2048x1024x1x2 (![0, 1, 2, 4] : Fin 4 → Fin S4x2048x1024x1x2.rank)
  concatenates_S4x2048x1024x1x2_S4x2048x1024x1x2_S4x2048x1024x2x2_d3 : Shape.Concatenates [S4x2048x1024x1x2, S4x2048x1024x1x2] S4x2048x1024x2x2 3
  shapeCasts_S4x2048x1024x2x2_S4x2048x4096 : S4x2048x1024x2x2.ShapeCasts S4x2048x4096
  shapeCasts_S4x2048x4096_S4x2048x512x2x4 : S4x2048x4096.ShapeCasts S4x2048x512x2x4
  slices_S4x2048x512x2x4_S4x2048x512x1x4_0_0_0_0_0 : S4x2048x512x2x4.Slices ![0, 0, 0, 0, 0] S4x2048x512x1x4
  shapeCasts_S4x2048x512x1x4_S4x2048x512x4 : S4x2048x512x1x4.ShapeCasts S4x2048x512x4
  slices_S4x2048x512x2x4_S4x2048x512x1x4_0_0_0_1_0 : S4x2048x512x2x4.Slices ![0, 0, 0, 1, 0] S4x2048x512x1x4
  bcast_S4x2048x512x4_S4x2048x512x1x4_0_1_2_4 : S4x2048x512x4.BroadcastsInDim S4x2048x512x1x4 (![0, 1, 2, 4] : Fin 4 → Fin S4x2048x512x1x4.rank)
  concatenates_S4x2048x512x1x4_S4x2048x512x1x4_S4x2048x512x2x4_d3 : Shape.Concatenates [S4x2048x512x1x4, S4x2048x512x1x4] S4x2048x512x2x4 3
  shapeCasts_S4x2048x512x2x4_S4x2048x4096 : S4x2048x512x2x4.ShapeCasts S4x2048x4096
  shapeCasts_S4x2048x4096_S4x2048x256x2x8 : S4x2048x4096.ShapeCasts S4x2048x256x2x8
  slices_S4x2048x256x2x8_S4x2048x256x1x8_0_0_0_0_0 : S4x2048x256x2x8.Slices ![0, 0, 0, 0, 0] S4x2048x256x1x8
  shapeCasts_S4x2048x256x1x8_S4x2048x256x8 : S4x2048x256x1x8.ShapeCasts S4x2048x256x8
  slices_S4x2048x256x2x8_S4x2048x256x1x8_0_0_0_1_0 : S4x2048x256x2x8.Slices ![0, 0, 0, 1, 0] S4x2048x256x1x8
  bcast_S4x2048x256x8_S4x2048x256x1x8_0_1_2_4 : S4x2048x256x8.BroadcastsInDim S4x2048x256x1x8 (![0, 1, 2, 4] : Fin 4 → Fin S4x2048x256x1x8.rank)
  concatenates_S4x2048x256x1x8_S4x2048x256x1x8_S4x2048x256x2x8_d3 : Shape.Concatenates [S4x2048x256x1x8, S4x2048x256x1x8] S4x2048x256x2x8 3
  shapeCasts_S4x2048x256x2x8_S4x2048x4096 : S4x2048x256x2x8.ShapeCasts S4x2048x4096
  shapeCasts_S4x2048x4096_S4x2048x128x2x16 : S4x2048x4096.ShapeCasts S4x2048x128x2x16
  slices_S4x2048x128x2x16_S4x2048x128x1x16_0_0_0_0_0 : S4x2048x128x2x16.Slices ![0, 0, 0, 0, 0] S4x2048x128x1x16
  shapeCasts_S4x2048x128x1x16_S4x2048x128x16 : S4x2048x128x1x16.ShapeCasts S4x2048x128x16
  slices_S4x2048x128x2x16_S4x2048x128x1x16_0_0_0_1_0 : S4x2048x128x2x16.Slices ![0, 0, 0, 1, 0] S4x2048x128x1x16
  bcast_S4x2048x128x16_S4x2048x128x1x16_0_1_2_4 : S4x2048x128x16.BroadcastsInDim S4x2048x128x1x16 (![0, 1, 2, 4] : Fin 4 → Fin S4x2048x128x1x16.rank)
  concatenates_S4x2048x128x1x16_S4x2048x128x1x16_S4x2048x128x2x16_d3 : Shape.Concatenates [S4x2048x128x1x16, S4x2048x128x1x16] S4x2048x128x2x16 3
  shapeCasts_S4x2048x128x2x16_S4x2048x4096 : S4x2048x128x2x16.ShapeCasts S4x2048x4096
  shapeCasts_S4x2048x4096_S4x2048x64x2x32 : S4x2048x4096.ShapeCasts S4x2048x64x2x32
  slices_S4x2048x64x2x32_S4x2048x64x1x32_0_0_0_0_0 : S4x2048x64x2x32.Slices ![0, 0, 0, 0, 0] S4x2048x64x1x32
  shapeCasts_S4x2048x64x1x32_S4x2048x64x32 : S4x2048x64x1x32.ShapeCasts S4x2048x64x32
  slices_S4x2048x64x2x32_S4x2048x64x1x32_0_0_0_1_0 : S4x2048x64x2x32.Slices ![0, 0, 0, 1, 0] S4x2048x64x1x32
  bcast_S4x2048x64x32_S4x2048x64x1x32_0_1_2_4 : S4x2048x64x32.BroadcastsInDim S4x2048x64x1x32 (![0, 1, 2, 4] : Fin 4 → Fin S4x2048x64x1x32.rank)
  concatenates_S4x2048x64x1x32_S4x2048x64x1x32_S4x2048x64x2x32_d3 : Shape.Concatenates [S4x2048x64x1x32, S4x2048x64x1x32] S4x2048x64x2x32 3
  shapeCasts_S4x2048x64x2x32_S4x2048x4096 : S4x2048x64x2x32.ShapeCasts S4x2048x4096
  shapeCasts_S4x2048x4096_S4x2048x32x2x64 : S4x2048x4096.ShapeCasts S4x2048x32x2x64
  slices_S4x2048x32x2x64_S4x2048x32x1x64_0_0_0_0_0 : S4x2048x32x2x64.Slices ![0, 0, 0, 0, 0] S4x2048x32x1x64
  shapeCasts_S4x2048x32x1x64_S4x2048x32x64 : S4x2048x32x1x64.ShapeCasts S4x2048x32x64
  slices_S4x2048x32x2x64_S4x2048x32x1x64_0_0_0_1_0 : S4x2048x32x2x64.Slices ![0, 0, 0, 1, 0] S4x2048x32x1x64
  bcast_S4x2048x32x64_S4x2048x32x1x64_0_1_2_4 : S4x2048x32x64.BroadcastsInDim S4x2048x32x1x64 (![0, 1, 2, 4] : Fin 4 → Fin S4x2048x32x1x64.rank)
  concatenates_S4x2048x32x1x64_S4x2048x32x1x64_S4x2048x32x2x64_d3 : Shape.Concatenates [S4x2048x32x1x64, S4x2048x32x1x64] S4x2048x32x2x64 3
  shapeCasts_S4x2048x32x2x64_S4x2048x4096 : S4x2048x32x2x64.ShapeCasts S4x2048x4096
  shapeCasts_S4x2048x4096_S4x2048x16x2x128 : S4x2048x4096.ShapeCasts S4x2048x16x2x128
  slices_S4x2048x16x2x128_S4x2048x16x1x128_0_0_0_0_0 : S4x2048x16x2x128.Slices ![0, 0, 0, 0, 0] S4x2048x16x1x128
  shapeCasts_S4x2048x16x1x128_S4x2048x16x128 : S4x2048x16x1x128.ShapeCasts S4x2048x16x128
  slices_S4x2048x16x2x128_S4x2048x16x1x128_0_0_0_1_0 : S4x2048x16x2x128.Slices ![0, 0, 0, 1, 0] S4x2048x16x1x128
  bcast_S4x2048x16x128_S4x2048x16x1x128_0_1_2_4 : S4x2048x16x128.BroadcastsInDim S4x2048x16x1x128 (![0, 1, 2, 4] : Fin 4 → Fin S4x2048x16x1x128.rank)
  concatenates_S4x2048x16x1x128_S4x2048x16x1x128_S4x2048x16x2x128_d3 : Shape.Concatenates [S4x2048x16x1x128, S4x2048x16x1x128] S4x2048x16x2x128 3
  shapeCasts_S4x2048x16x2x128_S4x2048x4096 : S4x2048x16x2x128.ShapeCasts S4x2048x4096
  shapeCasts_S4x2048x4096_S4x2048x8x2x256 : S4x2048x4096.ShapeCasts S4x2048x8x2x256
  slices_S4x2048x8x2x256_S4x2048x8x1x256_0_0_0_0_0 : S4x2048x8x2x256.Slices ![0, 0, 0, 0, 0] S4x2048x8x1x256
  shapeCasts_S4x2048x8x1x256_S4x2048x8x256 : S4x2048x8x1x256.ShapeCasts S4x2048x8x256
  slices_S4x2048x8x2x256_S4x2048x8x1x256_0_0_0_1_0 : S4x2048x8x2x256.Slices ![0, 0, 0, 1, 0] S4x2048x8x1x256
  bcast_S4x2048x8x256_S4x2048x8x1x256_0_1_2_4 : S4x2048x8x256.BroadcastsInDim S4x2048x8x1x256 (![0, 1, 2, 4] : Fin 4 → Fin S4x2048x8x1x256.rank)
  concatenates_S4x2048x8x1x256_S4x2048x8x1x256_S4x2048x8x2x256_d3 : Shape.Concatenates [S4x2048x8x1x256, S4x2048x8x1x256] S4x2048x8x2x256 3
  shapeCasts_S4x2048x8x2x256_S4x2048x4096 : S4x2048x8x2x256.ShapeCasts S4x2048x4096
  shapeCasts_S4x2048x4096_S4x2048x4x2x512 : S4x2048x4096.ShapeCasts S4x2048x4x2x512
  slices_S4x2048x4x2x512_S4x2048x4x1x512_0_0_0_0_0 : S4x2048x4x2x512.Slices ![0, 0, 0, 0, 0] S4x2048x4x1x512
  shapeCasts_S4x2048x4x1x512_S4x2048x4x512 : S4x2048x4x1x512.ShapeCasts S4x2048x4x512
  slices_S4x2048x4x2x512_S4x2048x4x1x512_0_0_0_1_0 : S4x2048x4x2x512.Slices ![0, 0, 0, 1, 0] S4x2048x4x1x512
  bcast_S4x2048x4x512_S4x2048x4x1x512_0_1_2_4 : S4x2048x4x512.BroadcastsInDim S4x2048x4x1x512 (![0, 1, 2, 4] : Fin 4 → Fin S4x2048x4x1x512.rank)
  concatenates_S4x2048x4x1x512_S4x2048x4x1x512_S4x2048x4x2x512_d3 : Shape.Concatenates [S4x2048x4x1x512, S4x2048x4x1x512] S4x2048x4x2x512 3
  shapeCasts_S4x2048x4x2x512_S4x2048x4096 : S4x2048x4x2x512.ShapeCasts S4x2048x4096
  shapeCasts_S4x2048x4096_S4x2048x2x2x1024 : S4x2048x4096.ShapeCasts S4x2048x2x2x1024
  slices_S4x2048x2x2x1024_S4x2048x2x1x1024_0_0_0_0_0 : S4x2048x2x2x1024.Slices ![0, 0, 0, 0, 0] S4x2048x2x1x1024
  shapeCasts_S4x2048x2x1x1024_S4x2048x2x1024 : S4x2048x2x1x1024.ShapeCasts S4x2048x2x1024
  slices_S4x2048x2x2x1024_S4x2048x2x1x1024_0_0_0_1_0 : S4x2048x2x2x1024.Slices ![0, 0, 0, 1, 0] S4x2048x2x1x1024
  bcast_S4x2048x2x1024_S4x2048x2x1x1024_0_1_2_4 : S4x2048x2x1024.BroadcastsInDim S4x2048x2x1x1024 (![0, 1, 2, 4] : Fin 4 → Fin S4x2048x2x1x1024.rank)
  concatenates_S4x2048x2x1x1024_S4x2048x2x1x1024_S4x2048x2x2x1024_d3 : Shape.Concatenates [S4x2048x2x1x1024, S4x2048x2x1x1024] S4x2048x2x2x1024 3
  shapeCasts_S4x2048x2x2x1024_S4x2048x4096 : S4x2048x2x2x1024.ShapeCasts S4x2048x4096
  shapeCasts_S4x2048x4096_S4x2048x1x2x2048 : S4x2048x4096.ShapeCasts S4x2048x1x2x2048
  slices_S4x2048x1x2x2048_S4x2048x1x1x2048_0_0_0_0_0 : S4x2048x1x2x2048.Slices ![0, 0, 0, 0, 0] S4x2048x1x1x2048
  shapeCasts_S4x2048x1x1x2048_S4x2048x1x2048 : S4x2048x1x1x2048.ShapeCasts S4x2048x1x2048
  slices_S4x2048x1x2x2048_S4x2048x1x1x2048_0_0_0_1_0 : S4x2048x1x2x2048.Slices ![0, 0, 0, 1, 0] S4x2048x1x1x2048
  bcast_S4x2048x1x2048_S4x2048x1x1x2048_0_1_2_4 : S4x2048x1x2048.BroadcastsInDim S4x2048x1x1x2048 (![0, 1, 2, 4] : Fin 4 → Fin S4x2048x1x1x2048.rank)
  concatenates_S4x2048x1x1x2048_S4x2048x1x1x2048_S4x2048x1x2x2048_d3 : Shape.Concatenates [S4x2048x1x1x2048, S4x2048x1x1x2048] S4x2048x1x2x2048 3
  shapeCasts_S4x2048x1x2x2048_S4x2048x4096 : S4x2048x1x2x2048.ShapeCasts S4x2048x4096
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics both programs compute, stated once over rows of 4096 extended reals.

  One butterfly pass of half-width `H` sends a row `f` to the row whose entry `d` is
  `f d + f (d + H)` when bit `H` of `d` is clear (the entry is the lower one of its pair) and
  `f (d - H) - f d` when it is set (the upper one): the Walsh–Hadamard butterfly.  The positions
  `d + H` and `d - H` are written modulo 4096, the way a cyclic shift of the row reaches them;
  inside a pair no wrap-around happens.  Twelve passes, `H = 1, 2, 4, …, 2048`, give the
  transform of the row.  The result of the whole computation at row `r`, output column `o` is

      ∑ d, (transform (row r) d * (1/64 as the float word 0x3C800000)) * W o d  +  bias o,

  the same products in the same order on both sides, so no law beyond the definition of the
  operations is needed and no input has to be finite.
-/
import Idealize.ShloMosaic.PureOps.Ideal
import Idealize.ShloMosaic.Lib.ValueIdx

noncomputable section

open scoped BigOperators

namespace Cert.Fwht

open Idealize.ShloMosaic Idealize.ShloMosaic.ValueIdx

/-- One butterfly pass of half-width `H` on a row of 4096 entries. -/
def bfly (H : Nat) (f : Fin 4096 → EReal) : Fin 4096 → EReal := fun d =>
  if (d.val / H) % 2 = 0 then f d + f ⟨(d.val + H) % 4096, Nat.mod_lt _ (by norm_num)⟩
  else f ⟨(d.val + 4096 - H) % 4096, Nat.mod_lt _ (by norm_num)⟩ - f d

/-- The twelve passes, half-widths 1, 2, 4, …, 2048 in this order. -/
def transform (f : Fin 4096 → EReal) : Fin 4096 → EReal :=
  bfly 2048 (bfly 1024 (bfly 512 (bfly 256 (bfly 128 (bfly 64 (bfly 32 (bfly 16 (bfly 8 (bfly 4 (bfly 2 (bfly 1 f)))))))))))

/-- The scale both programs multiply the transformed row by: the float word of 1/64. -/
def scale : EReal := Ideal.ofBits .f32 0x3C800000#32

/-- One entry of the result: the transformed, scaled row against one row of the weight, plus the bias entry. -/
def rowOut (f w : Fin 4096 → EReal) (b : EReal) : EReal :=
  (∑ d : Fin 4096, (transform f d * scale) * w d) + b

/-- The result over the three-dimensional arrays the programs take: entry `(b, s, o)`. -/
def result (hs : (⟨3, ![4, 2048, 4096]⟩ : Shape).Idx → EReal) (W : (⟨2, ![4096, 4096]⟩ : Shape).Idx → EReal)
    (bias : (⟨1, ![4096]⟩ : Shape).Idx → EReal) : (⟨3, ![4, 2048, 4096]⟩ : Shape).Idx → EReal := fun i =>
  rowOut (fun d => hs (ix3 (i 0) (i 1) d)) (fun d => W (ix2 (i 2) d)) (bias (ix1 (i 2)))

/-- The same over the activations flattened to 8192 rows and the bias as one row: entry `(r, o)`. -/
def result2 (A : (⟨2, ![8192, 4096]⟩ : Shape).Idx → EReal) (W : (⟨2, ![4096, 4096]⟩ : Shape).Idx → EReal)
    (b2 : (⟨2, ![1, 4096]⟩ : Shape).Idx → EReal) : (⟨2, ![8192, 4096]⟩ : Shape).Idx → EReal := fun j =>
  rowOut (fun d => A (ix2 (j 0) d)) (fun d => W (ix2 (j 1) d)) (b2 (ix2 (0 : Fin 1) (j 1)))

/-- The same over one block of 32 rows: entry `(p, o)` of the block. -/
def resultBlock (x0 : (⟨2, ![32, 4096]⟩ : Shape).Idx → EReal) (W : (⟨2, ![4096, 4096]⟩ : Shape).Idx → EReal)
    (b2 : (⟨2, ![1, 4096]⟩ : Shape).Idx → EReal) : (⟨2, ![32, 4096]⟩ : Shape).Idx → EReal := fun j =>
  rowOut (fun d => x0 (ix2 (j 0) d)) (fun d => W (ix2 (j 1) d)) (b2 (ix2 (0 : Fin 1) (j 1)))

end Cert.Fwht

end
-- ==== Proof.KernelStage.lean ====
/-
  One butterfly pass the way the kernel spells it, on a block of 32 rows: with `c` the mask "bit `H` of the
  lane number is clear", the partner of lane `q` is taken from the row shifted cyclically by `4096 - H`
  (lane `q + H`) where the mask holds and from the row shifted by `H` (lane `q - H`) where it does not, and the
  new entry is `x + partner` under the mask and `partner - x` outside it.  For `H = 2 ^ k` the mask at lane `q`
  says `(q / H) % 2 = 0`, so the pass is `bfly H` on every row.
-/
import proofs.«179667_j39986145526404_1_alg».proof.Proof.Gen.KernelIdeal.Skeleton
import proofs.«179667_j39986145526404_1_alg».proof.Proof.Spec
import Idealize.ShloMosaic.Lib.Pipeline.Value
import Idealize.ShloMosaic.Lib.KernelVsHost
import Idealize.ShloMosaic.Lib.ValueIdx
import Mathlib.Data.Nat.Bitwise

noncomputable section

namespace Cert.KernelIdeal.BlockValue

open Idealize.ShloMosaic Idealize.ShloMosaic.ValueIdx Cert.KernelIdeal Cert.KernelIdeal.Gen

/-- The mask word at lane `q`: the lane number and `2 ^ k` have no common bit exactly when bit `k` of `q` is clear. -/
theorem lowBit_iff (k q : Nat) (hk : k < 32) :
    IntOp.cmpi .eq (IntOp.andi (BitVec.ofNat 32 q) (BitVec.ofNat 32 (2 ^ k))) 0#32 = 1#1 ↔ (q / 2 ^ k) % 2 = 0 := by
  have hpow : 2 ^ k < 2 ^ 32 := Nat.pow_lt_pow_right (by norm_num) hk
  have hand : q &&& 2 ^ k = (q.testBit k).toNat * 2 ^ k := Nat.and_two_pow q k
  have hle : q &&& 2 ^ k ≤ 2 ^ k := Nat.and_le_right
  have hbit : q.testBit k = decide (q / 2 ^ k % 2 = 1) := Nat.testBit_eq_decide_div_mod_eq
  have hz : (IntOp.andi (BitVec.ofNat 32 q) (BitVec.ofNat 32 (2 ^ k))) = BitVec.ofNat 32 (q &&& 2 ^ k) := by
    show BitVec.ofNat 32 q &&& BitVec.ofNat 32 (2 ^ k) = _
    rw [BitVec.ofNat_and]
  rw [hz]
  show BitVec.ofBool (BitVec.ofNat 32 (q &&& 2 ^ k) == 0#32) = 1#1 ↔ _
  have hpos : 0 < 2 ^ k := Nat.pos_of_ne_zero (by positivity)
  have hmod : (q / 2 ^ k) % 2 = 0 ∨ (q / 2 ^ k) % 2 = 1 := by omega
  constructor
  · intro h
    have h1 : (BitVec.ofNat 32 (q &&& 2 ^ k) == 0#32) = true := by
      cases hb : (BitVec.ofNat 32 (q &&& 2 ^ k) == 0#32) with
      | true => rfl
      | false => rw [hb] at h; exact absurd h (by decide)
    have h2 : BitVec.ofNat 32 (q &&& 2 ^ k) = 0#32 := by simpa using h1
    have h3 : (q &&& 2 ^ k) % 2 ^ 32 = 0 := by
      have := congrArg BitVec.toNat h2
      rw [BitVec.toNat_ofNat] at this
      exact this
    have h4 : q &&& 2 ^ k = 0 := by rw [Nat.mod_eq_of_lt (by omega)] at h3; exact h3
    rcases hmod with h0 | h1'
    · exact h0
    · exfalso
      have : q.testBit k = true := by rw [hbit]; simp [h1']
      rw [hand, this] at h4
      simp at h4
  · intro h
    have : q.testBit k = false := by rw [hbit]; simp [h]
    have h4 : q &&& 2 ^ k = 0 := by rw [hand, this]; simp
    rw [h4]
    rfl

/-- One pass as the kernel spells it: mask word `hw`, the two shift amounts `sp` (towards the upper partner) and
    `sm` (towards the lower one). -/
def kStage (hw sp sm : BitVec 32) (x : FVec Ideal S32x4096 .f32) : FVec Ideal S32x4096 .f32 :=
  select (cmpi .eq (andi (iota .tc S32x4096 32 [1] iota_S32x4096_d1_w32) (broadcast S32x4096 hw)) (broadcast S32x4096 0#32))
    (addf x (select (cmpi .eq (andi (iota .tc S32x4096 32 [1] iota_S32x4096_d1_w32) (broadcast S32x4096 hw)) (broadcast S32x4096 0#32))
      (dynamicRotate 1 sp none x rotates_S32x4096_d1) (dynamicRotate 1 sm none x rotates_S32x4096_d1)))
    (subf (select (cmpi .eq (andi (iota .tc S32x4096 32 [1] iota_S32x4096_d1_w32) (broadcast S32x4096 hw)) (broadcast S32x4096 0#32))
      (dynamicRotate 1 sp none x rotates_S32x4096_d1) (dynamicRotate 1 sm none x rotates_S32x4096_d1)) x)

/-- A cyclic shift of the block's rows by `s` lanes, read at row `p`, lane `q`: the entry `s` lanes before, cyclically. -/
theorem rotate_apply (sb : BitVec 32) (x : FVec Ideal S32x4096 .f32) (p : Fin 32) (q : Fin 4096) :
    dynamicRotate 1 sb none x rotates_S32x4096_d1 (ix2 p q)
      = x (ix2 p ⟨(q.val + 4096 - sb.toNat % 4096) % 4096, Nat.mod_lt _ (by norm_num)⟩) :=
  dynamicRotate_apply (1 : Fin 2) sb x rotates_S32x4096_d1 (ix2 p q)
    (ix2 p ⟨(q.val + 4096 - sb.toNat % 4096) % 4096, Nat.mod_lt _ (by norm_num)⟩) (fun b => by
      match b with
      | ⟨0, _⟩ => rfl
      | ⟨1, _⟩ => rfl)

/-- The kernel's pass with mask word `hw` and shifts `4096 - H`, `H`, where the mask at lane `q` says `(q / H) % 2 = 0`,
    is the butterfly pass of half-width `H` on every row of the block. -/
theorem kStage_apply_of_mask (H : Nat) (hH : H < 4096) (hHpos : 0 < H) (hw sp sm : BitVec 32) (x : FVec Ideal S32x4096 .f32)
    (p : Fin 32) (q : Fin 4096)
    (hbit : IntOp.cmpi .eq (IntOp.andi (BitVec.ofNat 32 q.val) hw) 0#32 = 1#1 ↔ (q.val / H) % 2 = 0)
    (hsp : sp.toNat = 4096 - H) (hsm : sm.toNat = H) :
    kStage hw sp sm x (ix2 p q) = Cert.Fwht.bfly H (fun d => x (ix2 p d)) q := by
  have hq : q.val < 4096 := q.isLt
  have hmask : (cmpi .eq (andi (iota .tc S32x4096 32 [1] iota_S32x4096_d1_w32) (broadcast S32x4096 hw)) (broadcast S32x4096 0#32)) (ix2 p q)
      = IntOp.cmpi .eq (IntOp.andi (BitVec.ofNat 32 q.val) hw) 0#32 := by
    show IntOp.cmpi .eq (IntOp.andi (iota .tc S32x4096 32 [1] iota_S32x4096_d1_w32 (ix2 p q)) hw) 0#32 = _
    rw [iota_single_apply]
  have hplus : dynamicRotate 1 sp none x rotates_S32x4096_d1 (ix2 p q)
      = x (ix2 p ⟨(q.val + H) % 4096, Nat.mod_lt _ (by norm_num)⟩) := by
    rw [rotate_apply]
    refine congrArg x (congrArg (ix2 p) (Fin.ext ?_))
    show (q.val + 4096 - sp.toNat % 4096) % 4096 = (q.val + H) % 4096
    rw [hsp]
    have e : (4096 - H) % 4096 = 4096 - H := Nat.mod_eq_of_lt (by omega)
    rw [e]
    congr 1; omega
  have hminus : dynamicRotate 1 sm none x rotates_S32x4096_d1 (ix2 p q)
      = x (ix2 p ⟨(q.val + 4096 - H) % 4096, Nat.mod_lt _ (by norm_num)⟩) := by
    rw [rotate_apply]
    refine congrArg x (congrArg (ix2 p) (Fin.ext ?_))
    show (q.val + 4096 - sm.toNat % 4096) % 4096 = (q.val + 4096 - H) % 4096
    rw [hsm, Nat.mod_eq_of_lt hH]
  unfold kStage Cert.Fwht.bfly
  simp only [select_apply, addf_apply, subf_apply, hmask, hplus, hminus]
  by_cases hlow : (q.val / H) % 2 = 0
  · rw [if_pos hlow, hbit.mpr hlow, select_one, select_one]
  · have hne : ¬ IntOp.cmpi .eq (IntOp.andi (BitVec.ofNat 32 q.val) hw) 0#32 = 1#1 := fun h => hlow (hbit.mp h)
    rw [if_neg hlow, eq_zero_of_ne_one hne, select_zero, select_zero]

/-- The same for the mask word `2 ^ k`. -/
theorem kStage_apply (k : Nat) (hk : k < 12) (hw sp sm : BitVec 32) (hhw : hw = BitVec.ofNat 32 (2 ^ k))
    (hsp : sp.toNat = 4096 - 2 ^ k) (hsm : sm.toNat = 2 ^ k) (x : FVec Ideal S32x4096 .f32) (p : Fin 32) (q : Fin 4096) :
    kStage hw sp sm x (ix2 p q) = Cert.Fwht.bfly (2 ^ k) (fun d => x (ix2 p d)) q := by
  have hH : 2 ^ k < 4096 := by
    have : 2 ^ k < 2 ^ 12 := Nat.pow_lt_pow_right (by norm_num) hk
    simpa using this
  subst hhw
  exact kStage_apply_of_mask (2 ^ k) hH (Nat.pos_of_ne_zero (by positivity)) _ sp sm x p q (lowBit_iff k q.val (by omega)) hsp hsm

end Cert.KernelIdeal.BlockValue

end
-- ==== Proof.KernelPayload.lean ====
/-
  What one grid point's body computes from its three loaded blocks.  The twelve butterfly passes on the 32 rows
  are the kernel's shift-and-select passes with mask words 1, 2, 4, …, 2048 (a pass on a block acts on each row
  by itself); the result is multiplied by the float word of 1/64 and cast to the narrower float type, which changes
  nothing on the extended reals; entry `(p, o)` of the product with the weight block, contracted over the second
  axis of both, is the sum over `d` of row `p` at `d` times weight row `o` at `d`; the one-row bias block,
  copied down the 32 rows, adds its entry `o`.
-/
import proofs.«179667_j39986145526404_1_alg».proof.Proof.Gen.KernelIdeal.Skeleton
import proofs.«179667_j39986145526404_1_alg».proof.Proof.Spec
import proofs.«179667_j39986145526404_1_alg».proof.Proof.KernelStage
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockValue

open Idealize.ShloMosaic Idealize.ShloMosaic.ValueIdx Cert.KernelIdeal Cert.KernelIdeal.Gen

/-- The twelve passes as the kernel spells them, half-widths 1, 2, 4, …, 2048, on the block as loaded. -/
def passes (x0 : Vec Ideal S32x4096 .f32) : FVec Ideal S32x4096 .f32 :=
  kStage 2048#32 2048#32 2048#32 (kStage 1024#32 3072#32 1024#32 (kStage 512#32 3584#32 512#32
    (kStage 256#32 3840#32 256#32 (kStage 128#32 3968#32 128#32 (kStage 64#32 4032#32 64#32
      (kStage 32#32 4064#32 32#32 (kStage 16#32 4080#32 16#32 (kStage 8#32 4088#32 8#32
        (kStage 4#32 4092#32 4#32 (kStage 2#32 4094#32 2#32 (kStage 1#32 4095#32 1#32
          (shapeCast S32x4096 x0 shapeCasts_S32x4096_S32x4096))))))))))))

set_option maxRecDepth 65536 in
/-- The left factor of the product: the passes, scaled, cast. -/
theorem lhs_eq (x0 : Vec Ideal S32x4096 .f32) :
    k0_pay8 (F := Ideal) (iota .tc S32x4096 32 [1] iota_S32x4096_d1_w32)
        (k0_pay6 (iota .tc S32x4096 32 [1] iota_S32x4096_d1_w32) (k0_pay2 x0) k0_pay3 (k0_pay4 x0) (k0_pay5 x0)) k0_pay7
      = truncf .bf16 (mulf (passes x0) (broadcast S32x4096 (Scalar.ofBits .f32 0x3C800000#32))) bitsLt_bf16_f32 := rfl

/-- Row `p` of a block. -/
def rowOf (v : FVec Ideal S32x4096 .f32) (p : Fin 32) : Fin 4096 → EReal := fun d => v (ix2 p d)

/-- A pass of the kernel acts on each row by itself, as the butterfly pass. -/
theorem kStage_row (H k : Nat) (hk : k < 12) (hHk : H = 2 ^ k) (hw sp sm : BitVec 32) (hhw : hw = BitVec.ofNat 32 (2 ^ k))
    (hsp : sp.toNat = 4096 - 2 ^ k) (hsm : sm.toNat = 2 ^ k) (x : FVec Ideal S32x4096 .f32) (p : Fin 32) :
    rowOf (kStage hw sp sm x) p = Cert.Fwht.bfly H (rowOf x p) := by
  subst hHk
  exact funext fun q => kStage_apply k hk hw sp sm hhw hsp hsm x p q

/-- Row `p` after the twelve passes is the transform of row `p`. -/
theorem passes_row (x0 : Vec Ideal S32x4096 .f32) (p : Fin 32) :
    rowOf (passes x0) p = Cert.Fwht.transform (rowOf x0 p) := by
  unfold passes Cert.Fwht.transform
  rw [kStage_row 2048 11 (by norm_num) (by norm_num) (2048#32) (2048#32) (2048#32) rfl rfl rfl,
    kStage_row 1024 10 (by norm_num) (by norm_num) (1024#32) (3072#32) (1024#32) rfl rfl rfl,
    kStage_row 512 9 (by norm_num) (by norm_num) (512#32) (3584#32) (512#32) rfl rfl rfl,
    kStage_row 256 8 (by norm_num) (by norm_num) (256#32) (3840#32) (256#32) rfl rfl rfl,
    kStage_row 128 7 (by norm_num) (by norm_num) (128#32) (3968#32) (128#32) rfl rfl rfl,
    kStage_row 64 6 (by norm_num) (by norm_num) (64#32) (4032#32) (64#32) rfl rfl rfl,
    kStage_row 32 5 (by norm_num) (by norm_num) (32#32) (4064#32) (32#32) rfl rfl rfl,
    kStage_row 16 4 (by norm_num) (by norm_num) (16#32) (4080#32) (16#32) rfl rfl rfl,
    kStage_row 8 3 (by norm_num) (by norm_num) (8#32) (4088#32) (8#32) rfl rfl rfl,
    kStage_row 4 2 (by norm_num) (by norm_num) (4#32) (4092#32) (4#32) rfl rfl rfl,
    kStage_row 2 1 (by norm_num) (by norm_num) (2#32) (4094#32) (2#32) rfl rfl rfl,
    kStage_row 1 0 (by norm_num) (by norm_num) (1#32) (4095#32) (1#32) rfl rfl rfl,
    shapeCast_self]

/-! ## The product's dimension numbers: both operands contracted over their second axis -/

theorem dot_rank : (dot_S32x4096_S4096x4096_S32x4096_1_1_0_0_n_n).contr.rank = 1 := rfl
theorem dot_size : (dot_S32x4096_S4096x4096_S32x4096_1_1_0_0_n_n).contr.size ⟨0, by rw [dot_rank]; exact Nat.one_pos⟩ = 4096 := rfl

/-- The left operand is read at the output's row, -/
theorem lhs_row (j : S32x4096.Idx) (k : (dot_S32x4096_S4096x4096_S32x4096_1_1_0_0_n_n).contr.Idx) :
    ((dot_S32x4096_S4096x4096_S32x4096_1_1_0_0_n_n).lhsIdx j k 0).val = (j 0).val := by
  simp [DotDims.lhsIdx, dot_S32x4096_S4096x4096_S32x4096_1_1_0_0_n_n]
  rfl
/-- and the right operand at the row the output's column names. -/
theorem rhs_row (j : S32x4096.Idx) (k : (dot_S32x4096_S4096x4096_S32x4096_1_1_0_0_n_n).contr.Idx) :
    ((dot_S32x4096_S4096x4096_S32x4096_1_1_0_0_n_n).rhsIdx j k 0).val = (j 1).val := by
  simp [DotDims.rhsIdx, dot_S32x4096_S4096x4096_S32x4096_1_1_0_0_n_n]
  rfl

/-- The product into a zero accumulator at `(p, o)`: the sum over `d` of the left row `p` times the right row `o`. -/
theorem product_apply (l : FVec Ideal S32x4096 .bf16) (w : FVec Ideal S4096x4096 .bf16) (p : Fin 32) (o : Fin 4096) :
    matmul dot_S32x4096_S4096x4096_S32x4096_1_1_0_0_n_n none l w (constant S32x4096 .f32 0x00000000#32) (ix2 p o)
      = ∑ d : Fin 4096, l (ix2 p d) * w (ix2 o d) := by
  simp only [matmul]
  rw [Ideal.matmul_constant_zero_apply,
    ← Equiv.sum_comp (contrEquiv1 dot_S32x4096_S4096x4096_S32x4096_1_1_0_0_n_n 4096 dot_rank dot_size).symm]
  refine Finset.sum_congr rfl fun d _ => ?_
  have hd := contrEquiv1_symm_val dot_S32x4096_S4096x4096_S32x4096_1_1_0_0_n_n 4096 dot_rank dot_size d
  have el : (dot_S32x4096_S4096x4096_S32x4096_1_1_0_0_n_n).lhsIdx (ix2 p o)
      ((contrEquiv1 dot_S32x4096_S4096x4096_S32x4096_1_1_0_0_n_n 4096 dot_rank dot_size).symm d) = ix2 p d :=
    funext fun a => Fin.ext (by
      match a with
      | ⟨0, _⟩ => exact lhs_row _ _
      | ⟨1, _⟩ => exact ((dot_S32x4096_S4096x4096_S32x4096_1_1_0_0_n_n).lhsIdx_val_of_single rfl _ _).trans hd)
  have er : (dot_S32x4096_S4096x4096_S32x4096_1_1_0_0_n_n).rhsIdx (ix2 p o)
      ((contrEquiv1 dot_S32x4096_S4096x4096_S32x4096_1_1_0_0_n_n 4096 dot_rank dot_size).symm d) = ix2 o d :=
    funext fun a => Fin.ext (by
      match a with
      | ⟨0, _⟩ => exact rhs_row _ _
      | ⟨1, _⟩ => exact ((dot_S32x4096_S4096x4096_S32x4096_1_1_0_0_n_n).rhsIdx_val_of_single rfl _ _).trans hd)
  rw [el, er]

/-- The body's one stored value, as a function of the three loaded blocks, is the block form of the result. -/
theorem pay_eq (x0 : Vec Ideal S32x4096 .f32) (x1 : Vec Ideal S4096x4096 .bf16) (x2 : Vec Ideal S1x4096 .f32) :
    k0_pay1 (F := Ideal) (k0_pay8 (iota .tc S32x4096 32 [1] iota_S32x4096_d1_w32)
        (k0_pay6 (iota .tc S32x4096 32 [1] iota_S32x4096_d1_w32) (k0_pay2 x0) k0_pay3 (k0_pay4 x0) (k0_pay5 x0)) k0_pay7) x1 x2
      = Cert.Fwht.resultBlock x0 x1 x2 := by
  rw [lhs_eq]
  funext j
  obtain ⟨p, o, rfl⟩ : ∃ (p : Fin 32) (o : Fin 4096), j = ix2 p o := ⟨j 0, j 1, eq_ix2 j⟩
  unfold k0_pay1 Cert.Fwht.resultBlock Cert.Fwht.rowOut
  show matmul (F := Ideal) dot_S32x4096_S4096x4096_S32x4096_1_1_0_0_n_n none _ (shapeCast S4096x4096 x1 shapeCasts_S4096x4096_S4096x4096)
        (constant (F := Ideal) S32x4096 .f32 0x00000000#32) (ix2 p o)
      + broadcastTo S32x4096 (shapeCast S1x4096 x2 shapeCasts_S1x4096_S1x4096) broadcasts_S1x4096_S32x4096 (ix2 p o) = _
  rw [product_apply, broadcastTo_1b_ab_apply, shapeCast_self, shapeCast_self]
  have hrow : ∀ d : Fin 4096, passes x0 (ix2 p d) = Cert.Fwht.transform (fun d' => x0 (ix2 p d')) d :=
    fun d => congrFun (passes_row x0 p) d
  refine congrArg (· + x2 (ix2 (0 : Fin 1) o)) (Finset.sum_congr rfl fun d _ => ?_)
  show (passes x0 (ix2 p d) * Ideal.ofBits .f32 0x3C800000#32) * x1 (ix2 o d) = _
  rw [hrow d]
  rfl

end Cert.KernelIdeal.BlockValue

end
-- ==== Proof.KernelArrayBlocks.lean ====
/-
  The array the grid leaves behind, read as one function of the arrays the grid found.

  The output is cut into 256 blocks of 32 rows; point `t` of the grid writes block `t`, and what it writes
  is the block form of the result computed from rows `32 t … 32 t + 31` of the activations, the whole weight
  and the whole bias row.  Entry `(p, o)` of that block depends on the activations only through row `p` of the
  block, which is row `32 t + p` of the array: so every block is the restriction of one function of the whole
  arrays, and since the 256 blocks tile the 8192 rows, the array ends holding that function.
-/
import proofs.«179667_j39986145526404_1_alg».proof.Proof.Gen.KernelIdeal.Frame
import proofs.«179667_j39986145526404_1_alg».proof.Proof.KernelPayload
import proofs.«179667_j39986145526404_1_alg».proof.Proof.Spec
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The zero offsets of a whole-buffer access, in the spelling the library's lemmas take. -/
theorem zero_offsets : (![0, 0] : Fin 2 → Nat) = fun _ => 0 := funext fun a => by fin_cases a <;> rfl

/-- The one store of the body covers its buffer, so the buffer ends holding the stored value: the block form of
    the result of the three loaded blocks. -/
theorem body_block (x0 : Vec Ideal S32x4096 .f32) (x1 : Vec Ideal S4096x4096 .bf16) (x2 : Vec Ideal S1x4096 .f32) :
    out0_3 x0 x1 x2 = Cert.Fwht.resultBlock x0 x1 x2 := by
  unfold out0_3
  rw [View.canon_unit_zero zero_offsets]
  simp only [View.ld_unit_zero (S := S32x4096) zero_offsets, View.ld_unit_zero (S := S4096x4096) zero_offsets,
    View.ld_unit_zero (S := S1x4096) zero_offsets]
  exact BlockValue.pay_eq x0 x1 x2

/-- An entry of the block form depends on the activations block only through one row, on the weight through one
    row and on the bias through one entry; where those agree with rows and an entry of whole arrays, the block
    entry is the whole-array entry. -/
theorem block_entry (x0 : S32x4096.Idx → EReal) (x1 : S4096x4096.Idx → EReal) (x2 : S1x4096.Idx → EReal)
    (A : S8192x4096.Idx → EReal) (W : S4096x4096.Idx → EReal) (B : S1x4096.Idx → EReal)
    (p : Fin 32) (o : Fin 4096) (r : Fin 8192)
    (h0 : ∀ d : Fin 4096, x0 (ix2 p d) = A (ix2 r d))
    (h1 : ∀ d : Fin 4096, x1 (ix2 o d) = W (ix2 o d))
    (h2 : x2 (ix2 (0 : Fin 1) o) = B (ix2 (0 : Fin 1) o)) :
    Cert.Fwht.resultBlock x0 x1 x2 (ix2 p o) = Cert.Fwht.result2 A W B (ix2 r o) := by
  show Cert.Fwht.rowOut (fun d => x0 (ix2 p d)) (fun d => x1 (ix2 o d)) (x2 (ix2 (0 : Fin 1) o))
    = Cert.Fwht.rowOut (fun d => A (ix2 r d)) (fun d => W (ix2 o d)) (B (ix2 (0 : Fin 1) o))
  rw [funext h0, funext h1, h2]

/-- The printed index maps, decided once over the 256 points: the activations' block moves with the output's,
    which sits at block row `t`; the weight and the bias are whole at every point. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, d)` of the activations' block at point `t` is entry `(32 t + p, d)` of the activations as the
    grid finds them: a block's coordinate on an axis is its block index times the block's extent plus the
    coordinate inside the block. -/
theorem act_block (c : Dev nD) (t : Fin cfg0.N) (p : Fin 32) (d : Fin 4096) (r : Fin 8192)
    (hr : r.val = win0_3.index t (0 : Fin 2) * 32 + p.val) :
    (iblk m c 0 t : S32x4096.Idx → EReal) (ix2 p d) = (V m c main_v0 : S8192x4096.Idx → EReal) (ix2 r d) := by
  obtain ⟨e0, e1, -, -, -, -, -, -⟩ := idx_facts t
  show V m c main_v0 (((cfg0.win 0).blk t).view.emb (ix2 p d)) = V m c main_v0 (ix2 r d)
  congr 1
  funext a
  apply Fin.ext
  match a with
  | ⟨0, _⟩ => show win0_0.index t (0 : Fin 2) * 32 + 1 * p.val = r.val; omega
  | ⟨1, _⟩ => show win0_0.index t (1 : Fin 2) * 4096 + 1 * d.val = d.val; omega

/-- The weight's block at any point is the whole weight. -/
theorem weight_block (c : Dev nD) (t : Fin cfg0.N) (o d : Fin 4096) :
    (iblk m c 1 t : S4096x4096.Idx → EReal) (ix2 o d) = (V m c main_v1 : S4096x4096.Idx → EReal) (ix2 o d) := by
  obtain ⟨-, -, e2, e3, -, -, -, -⟩ := idx_facts t
  show V m c main_v1 (((cfg0.win 1).blk t).view.emb (ix2 o d)) = V m c main_v1 (ix2 o d)
  congr 1
  funext a
  apply Fin.ext
  match a with
  | ⟨0, _⟩ => show win0_1.index t (0 : Fin 2) * 4096 + 1 * o.val = o.val; omega
  | ⟨1, _⟩ => show win0_1.index t (1 : Fin 2) * 4096 + 1 * d.val = d.val; omega

/-- The bias row's block at any point is the whole bias row. -/
theorem bias_block (c : Dev nD) (t : Fin cfg0.N) (o : Fin 4096) :
    (iblk m c 2 t : S1x4096.Idx → EReal) (ix2 (0 : Fin 1) o) = (V m c main_v2 : S1x4096.Idx → EReal) (ix2 (0 : Fin 1) o) := by
  obtain ⟨-, -, -, -, e4, e5, -, -⟩ := idx_facts t
  show V m c main_v2 (((cfg0.win 2).blk t).view.emb (ix2 (0 : Fin 1) o)) = V m c main_v2 (ix2 (0 : Fin 1) o)
  congr 1
  funext a
  apply Fin.ext
  match a with
  | ⟨0, _⟩ => show win0_2.index t (0 : Fin 2) * 1 + 1 * 0 = 0; omega
  | ⟨1, _⟩ => show win0_2.index t (1 : Fin 2) * 4096 + 1 * o.val = o.val; omega

/-- What point `t` writes back is block `t` of the whole-array result of the arrays the grid found. -/
theorem flushed_eq (c : Dev nD) (t : Fin cfg0.N) :
    (dats m 0 c).flushed 3 t = ((cfg0.win 3).blk t).view.read (Elt Ideal)
      (Cert.Fwht.result2 (V m c main_v0) (V m c main_v1) (V m c main_v2)) := by
  show (cfg0.win 3).cut (grid0.coords t) ((dats m 0 c).after 3 t) = _
  rw [after0_3, body_block]
  funext j
  obtain ⟨p, o, rfl⟩ : ∃ (p : Fin 32) (o : Fin 4096), j = ix2 p o := ⟨j 0, j 1, eq_ix2 j⟩
  obtain ⟨-, -, -, -, -, -, e6, e7⟩ := idx_facts t
  have hN : grid0.N = 256 := N_0
  have ht : t.val < 256 := hN ▸ t.isLt
  have hr : win0_3.index t (0 : Fin 2) * 32 + p.val < 8192 := by omega
  have hemb : ((cfg0.win 3).blk t).view.emb (ix2 p o) = (ix2 (⟨win0_3.index t (0 : Fin 2) * 32 + p.val, hr⟩ : Fin 8192) o : S8192x4096.Idx) := by
    funext a
    apply Fin.ext
    match a with
    | ⟨0, _⟩ => show win0_3.index t (0 : Fin 2) * 32 + 1 * p.val = win0_3.index t (0 : Fin 2) * 32 + p.val; omega
    | ⟨1, _⟩ => show win0_3.index t (1 : Fin 2) * 4096 + 1 * o.val = o.val; omega
  show Cert.Fwht.resultBlock (iblk m c 0 t) (iblk m c 1 t) (iblk m c 2 t) (ix2 p o)
    = Cert.Fwht.result2 (V m c main_v0) (V m c main_v1) (V m c main_v2) (((cfg0.win 3).blk t).view.emb (ix2 p o))
  rw [hemb]
  exact block_entry _ _ _ _ _ _ p o _ (fun d => act_block m c t p d _ rfl) (fun d => weight_block m c t o d)
    (bias_block m c t o)

/-- An index of the output array is in point `t`'s block iff each coordinate is in the block's range on its axis. -/
theorem mem_blk (t : Fin cfg0.N) (i : S8192x4096.Idx) :
    i ∈ ((cfg0.win 3).blk t).view.set ↔ ∀ a : Fin 2, win0_3.index t a * S32x4096.size a ≤ (i a).val
      ∧ (i a).val < win0_3.index t a * S32x4096.size a + S32x4096.size a := by
  show i ∈ ((View.whole main_v3).slice (win0_3.rect t)).set ↔ _
  rw [View.set_slice_whole, Rect.mem_set_unit]
  exact Iff.rfl

/-- The 256 blocks of 32 rows tile the 8192 rows: row `r` lies in the block of point `r / 32`. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hlt : (i 0).val / 32 < grid0.N := by rw [N_0]; omega
  obtain ⟨-, -, -, -, -, -, e6, e7⟩ := idx_facts ⟨(i 0).val / 32, hlt⟩
  have e6' : win0_3.index ⟨(i 0).val / 32, hlt⟩ (0 : Fin 2) = (i 0).val / 32 := e6
  refine ⟨⟨(i 0).val / 32, hlt⟩, flush0_3 _, ?_⟩
  rw [mem_blk]
  intro a
  match a with
  | ⟨0, _⟩ =>
    show win0_3.index ⟨(i 0).val / 32, hlt⟩ (0 : Fin 2) * 32 ≤ (i 0).val
      ∧ (i 0).val < win0_3.index ⟨(i 0).val / 32, hlt⟩ (0 : Fin 2) * 32 + 32
    omega
  | ⟨1, _⟩ =>
    show win0_3.index ⟨(i 0).val / 32, hlt⟩ (1 : Fin 2) * 4096 ≤ (i 1).val
      ∧ (i 1).val < win0_3.index ⟨(i 0).val / 32, hlt⟩ (1 : Fin 2) * 4096 + 4096
    omega

/-- So the output array after the grid is the whole-array result of the arrays the grid found. -/
theorem final (c : Dev nD) :
    (dats m 0 c).arrAt 3 cfg0.N = Cert.Fwht.result2 (V m c main_v0) (V m c main_v1) (V m c main_v2) :=
  (dats m 0 c).arrAt_eq_of_cover 3 _ (fun t _ => flushed_eq m c t) cover

end Cert.KernelIdeal.ArrayValue

end
-- ==== Proof.KernelArrayHost.lean ====
/-
  The arrays the grid finds, and the array the program returns, in terms of the program's three arguments.

  Before the grid the program lays the activations `[4, 2048, 4096]` out as `[8192, 4096]` (entry `(b, s, d)`
  becomes entry `(2048 b + s, d)`: the same row-major position), changes the weight's float format (the identity
  on extended reals) and lays the bias `[4096]` out as one row `[1, 4096]`.  After the grid it lays the
  `[8192, 4096]` output back out as `[4, 2048, 4096]`.  Read entry by entry, the whole-array result of the
  re-laid arrays, re-laid back, is the result over the three-dimensional arrays.
-/
import proofs.«179667_j39986145526404_1_alg».proof.Proof.Gen.KernelIdeal.Frame
import proofs.«179667_j39986145526404_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The activations as the grid finds them: the first argument laid out as 8192 rows. -/
theorem act_entry (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

/-- The weight as the grid finds it: the second argument in the narrower float format. -/
theorem weight_entry (c : Dev nD) : (V m c main_v1 : S4096x4096.Idx → EReal)
    = truncf (F := Ideal) .bf16 (m ((c : Thread nD τ).loc main_arg1)) bitsLt_bf16_f32 := by
  show StableHlo.after hostOps0 (fun b => m (c, b)) (Proc.devRef .tc main_v1) = _
  after_results

/-- The bias as the grid finds it: the third argument laid out as one row. -/
theorem bias_entry (c : Dev nD) : (V m c main_v2 : S1x4096.Idx → EReal)
    = shapeCast S1x4096 (m ((c : Thread nD τ).loc main_arg2)) shapeCasts_S4096_S1x4096 := by
  show StableHlo.after hostOps0 (fun b => m (c, b)) (Proc.devRef .tc main_v2) = _
  after_results
  rfl

/-- The whole-array result of the re-laid arguments, laid back out in three dimensions, is the result over the
    three-dimensional arrays: entry `(b, s, o)` is entry `(2048 b + s, o)` of the flat result, whose activations
    row `2048 b + s` is row `(b, s)` of the first argument, whose weight row is unchanged by the change of format,
    and whose bias entry `(0, o)` is entry `o` of the third argument. -/
theorem result2_relaid (hs : S4x2048x4096.Idx → EReal) (W : S4096x4096.Idx → EReal) (bias : S4096.Idx → EReal)
    (h1 : S4x2048x4096.ShapeCasts S8192x4096) (hb : FTy.bits .bf16 < FTy.bits .f32) (h2 : S4096.ShapeCasts S1x4096)
    (h3 : S8192x4096.ShapeCasts S4x2048x4096) :
    shapeCast S4x2048x4096 (Cert.Fwht.result2 (shapeCast S8192x4096 hs h1) (truncf (F := Ideal) .bf16 W hb)
        (shapeCast S1x4096 bias h2)) h3 = Cert.Fwht.result hs W bias := by
  funext i
  obtain ⟨b, s, o, rfl⟩ : ∃ (b : Fin 4) (s : Fin 2048) (o : Fin 4096), i = ix3 b s o := ⟨i 0, i 1, i 2, eq_ix3 i⟩
  have hr : b.val * 2048 + s.val < 8192 := by omega
  rw [shapeCast_apply _ h3 (ix3 b s o) (ix2 (⟨b.val * 2048 + s.val, hr⟩ : Fin 8192) o) (by
    rw [Shape.rowMajor_val_two, Shape.rowMajor_val_three]
    show (b.val * 2048 + s.val) * 4096 + o.val = (b.val * 2048 + s.val) * 4096 + o.val
    rfl)]
  show Cert.Fwht.rowOut (fun d => shapeCast S8192x4096 hs h1 (ix2 (⟨b.val * 2048 + s.val, hr⟩ : Fin 8192) d))
      (fun d => W (ix2 o d)) (shapeCast S1x4096 bias h2 (ix2 (0 : Fin 1) o))
    = Cert.Fwht.rowOut (fun d => hs (ix3 b s d)) (fun d => W (ix2 o d)) (bias (ix1 o))
  rw [shapeCast_a_1a_apply bias h2 0 o]
  congr 1
  funext d
  exact shapeCast_apply hs h1 _ (ix3 b s d) (by
    rw [Shape.rowMajor_val_two, Shape.rowMajor_val_three]
    show (b.val * 2048 + s.val) * 4096 + d.val = (b.val * 2048 + s.val) * 4096 + d.val
    rfl)

end Cert.KernelIdeal.ArrayValue

end
-- ==== Proof.KernelArray.lean ====
/-
  The kernel's whole run read as a value.

  The program lays its three arguments out for the grid, runs the grid — whose output array ends holding the
  whole-array result of the arrays it found — and lays that array back out in three dimensions.  Composing the
  three readings, every run ends with the returned array at the transform-scale-multiply-add result of the three
  arguments, and with the arguments as they were.
-/
import proofs.«179667_j39986145526404_1_alg».proof.Proof.KernelArrayBlocks
import proofs.«179667_j39986145526404_1_alg».proof.Proof.KernelArrayHost

noncomputable section

namespace Cert.KernelIdeal.ArrayValue

open Idealize.ShloMosaic Idealize.SL.Sem Cert.KernelIdeal
open Cert.KernelIdeal.Gen Idealize.ShloMosaic.TcCoe Idealize.ShloMosaic.StableHlo

/-- The returned array: the grid's output array laid back out in three dimensions, which is the result of the
    three arguments. -/
theorem returned (m : (ℓ : Loc nD τ sig) → Buf (Elt Ideal) ℓ) (c : Dev nD) :
    Pipeline.afterTail₀ cfgs (dats m) 0 (V0 m) [hostOps1] c main_v4
      = Cert.Fwht.result (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N)
        (Proc.devRef .tc main_v3)
      = Cert.Fwht.result2 (V m c main_v0) (V m c main_v1) (V m c main_v2) :=
    (Pipeline.withArrays_arr spec0 launch0.win.arr_inj c _ _ 3).trans (final m c)
  rw [hw, act_entry, weight_entry, bias_entry]
  exact result2_relaid _ _ _ _ _ _ _

/-- Every weakly fair run of the program from a memory `m` terminates with the returned array at the result of
    the three arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = Cert.Fwht.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (returned m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ArrayValue

end
-- ==== Proof.RefOps.lean ====
/-
  The reference's 142 operations in their order, cut into the pieces the computation is made of: the four
  operations that form the scalar 1 / sqrt 4096, the twelve butterfly passes of eleven operations each, and
  the six operations that scale, multiply by the weight and add the bias.
-/
import proofs.«179667_j39986145526404_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The scalar the reference scales by: the constants 4096 and 1, the square root and the quotient. -/
abbrev opsHead : List (HloOp τ sig (Elt F)) :=
  [ nullary main_cst (constant S_ .f32 0x45800000#32),
    unary main_cst main_v0 (Host.sqrt : (⟨S_, .f32⟩ : BufTy).Contents (Elt F) → (⟨S_, .f32⟩ : BufTy).Contents (Elt F)),
    nullary main_cst_0 (constant S_ .f32 0x3F800000#32),
    binary main_cst_0 main_v0 main_v1 (Host.divf : (⟨S_, .f32⟩ : BufTy).Contents (Elt F) → (⟨S_, .f32⟩ : BufTy).Contents (Elt F) → (⟨S_, .f32⟩ : BufTy).Contents (Elt F)) ]

/-- Pass 0, half-width 1: cut the rows into pairs of halves, take the halves, add and subtract them, lay the results side by side, restore the rows. -/
abbrev opsPass0 : List (HloOp τ sig (Elt F)) :=
  [ reshape main_arg0 main_v2 rfl shapeCasts_S4x2048x4096_S4x2048x2048x2x1,
    unary main_v2 main_v3 ((extractStridedSlice S4x2048x2048x1x1 ![0, 0, 0, 0, 0] · slices_S4x2048x2048x2x1_S4x2048x2048x1x1_0_0_0_0_0) : (⟨S4x2048x2048x2x1, .f32⟩ : BufTy).Contents (Elt F) → (⟨S4x2048x2048x1x1, .f32⟩ : BufTy).Contents (Elt F)),
    reshape main_v3 main_v4 rfl shapeCasts_S4x2048x2048x1x1_S4x2048x2048x1,
    unary main_v2 main_v5 ((extractStridedSlice S4x2048x2048x1x1 ![0, 0, 0, 1, 0] · slices_S4x2048x2048x2x1_S4x2048x2048x1x1_0_0_0_1_0) : (⟨S4x2048x2048x2x1, .f32⟩ : BufTy).Contents (Elt F) → (⟨S4x2048x2048x1x1, .f32⟩ : BufTy).Contents (Elt F)),
    reshape main_v5 main_v6 rfl shapeCasts_S4x2048x2048x1x1_S4x2048x2048x1,
    binary main_v4 main_v6 main_v7 (addf : (⟨S4x2048x2048x1, .f32⟩ : BufTy).Contents (Elt F) → (⟨S4x2048x2048x1, .f32⟩ : BufTy).Contents (Elt F) → (⟨S4x2048x2048x1, .f32⟩ : BufTy).Contents (Elt F)),
    binary main_v4 main_v6 main_v8 (subf : (⟨S4x2048x2048x1, .f32⟩ : BufTy).Contents (Elt F) → (⟨S4x2048x2048x1, .f32⟩ : BufTy).Contents (Elt F) → (⟨S4x2048x2048x1, .f32⟩ : BufTy).Contents (Elt F)),
    unary main_v7 main_v9 (broadcastInDim S4x2048x2048x1x1 ![0, 1, 2, 4] bcast_S4x2048x2048x1_S4x2048x2048x1x1_0_1_2_4 : (⟨S4x2048x2048x1, .f32⟩ : BufTy).Contents (Elt F) → (⟨S4x2048x2048x1x1, .f32⟩ : BufTy).Contents (Elt F)),
    unary main_v8 main_v10 (broadcastInDim S4x2048x2048x1x1 ![0, 1, 2, 4] bcast_S4x2048x2048x1_S4x2048x2048x1x1_0_1_2_4 : (⟨S4x2048x2048x1, .f32⟩ : BufTy).Contents (Elt F) → (⟨S4x2048x2048x1x1, .f32⟩ : BufTy).Contents (Elt F)),
    binary main_v9 main_v10 main_v11 ((fun a b => concatenate S4x2048x2048x2x1 3 [⟨S4x2048x2048x1x1, a⟩, ⟨S4x2048x2048x1x1, b⟩] concatenates_S4x2048x2048x1x1_S4x2048x2048x1x1_S4x2048x2048x2x1_d3) : (⟨S4x2048x2048x1x1, .f32⟩ : BufTy).Contents (Elt F) → (⟨S4x2048x2048x1x1, .f32⟩ : BufTy).Contents (Elt F) → (⟨S4x2048x2048x2x1, .f32⟩ : BufTy).Contents (Elt F)),
    reshape main_v11 main_v12 rfl shapeCasts_S4x2048x2048x2x1_S4x2048x4096 ]

/-- Pass 1, half-width 2: cut the rows into pairs of halves, take the halves, add and subtract them, lay the results side by side, restore the rows. -/
abbrev opsPass1 : List (HloOp τ sig (Elt F)) :=
  [ reshape main_v12 main_v13 rfl shapeCasts_S4x2048x4096_S4x2048x1024x2x2,
    unary main_v13 main_v14 ((extractStridedSlice S4x2048x1024x1x2 ![0, 0, 0, 0, 0] · slices_S4x2048x1024x2x2_S4x2048x1024x1x2_0_0_0_0_0) : (⟨S4x2048x1024x2x2, .f32⟩ : BufTy).Contents (Elt F) → (⟨S4x2048x1024x1x2, .f32⟩ : BufTy).Contents (Elt F)),
    reshape main_v14 main_v15 rfl shapeCasts_S4x2048x1024x1x2_S4x2048x1024x2,
    unary main_v13 main_v16 ((extractStridedSlice S4x2048x1024x1x2 ![0, 0, 0, 1, 0] · slices_S4x2048x1024x2x2_S4x2048x1024x1x2_0_0_0_1_0) : (⟨S4x2048x1024x2x2, .f32⟩ : BufTy).Contents (Elt F) → (⟨S4x2048x1024x1x2, .f32⟩ : BufTy).Contents (Elt F)),
    reshape main_v16 main_v17 rfl shapeCasts_S4x2048x1024x1x2_S4x2048x1024x2,
    binary main_v15 main_v17 main_v18 (addf : (⟨S4x2048x1024x2, .f32⟩ : BufTy).Contents (Elt F) → (⟨S4x2048x1024x2, .f32⟩ : BufTy).Contents (Elt F) → (⟨S4x2048x1024x2, .f32⟩ : BufTy).Contents (Elt F)),
    binary main_v15 main_v17 main_v19 (subf : (⟨S4x2048x1024x2, .f32⟩ : BufTy).Contents (Elt F) → (⟨S4x2048x1024x2, .f32⟩ : BufTy).Contents (Elt F) → (⟨S4x2048x1024x2, .f32⟩ : BufTy).Contents (Elt F)),
    unary main_v18 main_v20 (broadcastInDim S4x2048x1024x1x2 ![0, 1, 2, 4] bcast_S4x2048x1024x2_S4x2048x1024x1x2_0_1_2_4 : (⟨S4x2048x1024x2, .f32⟩ : BufTy).Contents (Elt F) → (⟨S4x2048x1024x1x2, .f32⟩ : BufTy).Contents (Elt F)),
    unary main_v19 main_v21 (broadcastInDim S4x2048x1024x1x2 ![0, 1, 2, 4] bcast_S4x2048x1024x2_S4x2048x1024x1x2_0_1_2_4 : (⟨S4x2048x1024x2, .f32⟩ : BufTy).Contents (Elt F) → (⟨S4x2048x1024x1x2, .f32⟩ : BufTy).Contents (Elt F)),
    binary main_v20 main_v21 main_v22 ((fun a b => concatenate S4x2048x1024x2x2 3 [⟨S4x2048x1024x1x2, a⟩, ⟨S4x2048x1024x1x2, b⟩] concatenates_S4x2048x1024x1x2_S4x2048x1024x1x2_S4x2048x1024x2x2_d3) : (⟨S4x2048x1024x1x2, .f32⟩ : BufTy).Contents (Elt F) → (⟨S4x2048x1024x1x2, .f32⟩ : BufTy).Contents (Elt F) → (⟨S4x2048x1024x2x2, .f32⟩ : BufTy).Contents (Elt F)),
    reshape main_v22 main_v23 rfl shapeCasts_S4x2048x1024x2x2_S4x2048x4096 ]

/-- Pass 2, half-width 4: cut the rows into pairs of halves, take the halves, add and subtract them, lay the results side by side, restore the rows. -/
abbrev opsPass2 : List (HloOp τ sig (Elt F)) :=
  [ reshape main_v23 main_v24 rfl shapeCasts_S4x2048x4096_S4x2048x512x2x4,
    unary main_v24 main_v25 ((extractStridedSlice S4x2048x512x1x4 ![0, 0, 0, 0, 0] · slices_S4x2048x512x2x4_S4x2048x512x1x4_0_0_0_0_0) : (⟨S4x2048x512x2x4, .f32⟩ : BufTy).Contents (Elt F) → (⟨S4x2048x512x1x4, .f32⟩ : BufTy).Contents (Elt F)),
    reshape main_v25 main_v26 rfl shapeCasts_S4x2048x512x1x4_S4x2048x512x4,
    unary main_v24 main_v27 ((extractStridedSlice S4x2048x512x1x4 ![0, 0, 0, 1, 0] · slices_S4x2048x512x2x4_S4x2048x512x1x4_0_0_0_1_0) : (⟨S4x2048x512x2x4, .f32⟩ : BufTy).Contents (Elt F) → (⟨S4x2048x512x1x4, .f32⟩ : BufTy).Contents (Elt F)),
    reshape main_v27 main_v28 rfl shapeCasts_S4x2048x512x1x4_S4x2048x512x4,
    binary main_v26 main_v28 main_v29 (addf : (⟨S4x2048x512x4, .f32⟩ : BufTy).Contents (Elt F) → (⟨S4x2048x512x4, .f32⟩ : BufTy).Contents (Elt F) → (⟨S4x2048x512x4, .f32⟩ : BufTy).Contents (Elt F)),
    binary main_v26 main_v28 main_v30 (subf : (⟨S4x2048x512x4, .f32⟩ : BufTy).Contents (Elt F) → (⟨S4x2048x512x4, .f32⟩ : BufTy).Contents (Elt F) → (⟨S4x2048x512x4, .f32⟩ : BufTy).Contents (Elt F)),
    unary main_v29 main_v31 (broadcastInDim S4x2048x512x1x4 ![0, 1, 2, 4] bcast_S4x2048x512x4_S4x2048x512x1x4_0_1_2_4 : (⟨S4x2048x512x4, .f32⟩ : BufTy).Contents (Elt F) → (⟨S4x2048x512x1x4, .f32⟩ : BufTy).Contents (Elt F)),
    unary main_v30 main_v32 (broadcastInDim S4x2048x512x1x4 ![0, 1, 2, 4] bcast_S4x2048x512x4_S4x2048x512x1x4_0_1_2_4 : (⟨S4x2048x512x4, .f32⟩ : BufTy).Contents (Elt F) → (⟨S4x2048x512x1x4, .f32⟩ : BufTy).Contents (Elt F)),
    binary main_v31 main_v32 main_v33 ((fun a b => concatenate S4x2048x512x2x4 3 [⟨S4x2048x512x1x4, a⟩, ⟨S4x2048x512x1x4, b⟩] concatenates_S4x2048x512x1x4_S4x2048x512x1x4_S4x2048x512x2x4_d3) : (⟨S4x2048x512x1x4, .f32⟩ : BufTy).Contents (Elt F) → (⟨S4x2048x512x1x4, .f32⟩ : BufTy).Contents (Elt F) → (⟨S4x2048x512x2x4, .f32⟩ : BufTy).Contents (Elt F)),
    reshape main_v33 main_v34 rfl shapeCasts_S4x2048x512x2x4_S4x2048x4096 ]

/-- Pass 3, half-width 8: cut the rows into pairs of halves, take the halves, add and subtract them, lay the results side by side, restore the rows. -/
abbrev opsPass3 : List (HloOp τ sig (Elt F)) :=
  [ reshape main_v34 main_v35 rfl shapeCasts_S4x2048x4096_S4x2048x256x2x8,
    unary main_v35 main_v36 ((extractStridedSlice S4x2048x256x1x8 ![0, 0, 0, 0, 0] · slices_S4x2048x256x2x8_S4x2048x256x1x8_0_0_0_0_0) : (⟨S4x2048x256x2x8, .f32⟩ : BufTy).Contents (Elt F) → (⟨S4x2048x256x1x8, .f32⟩ : BufTy).Contents (Elt F)),
    reshape main_v36 main_v37 rfl shapeCasts_S4x2048x256x1x8_S4x2048x256x8,
    unary main_v35 main_v38 ((extractStridedSlice S4x2048x256x1x8 ![0, 0, 0, 1, 0] · slices_S4x2048x256x2x8_S4x2048x256x1x8_0_0_0_1_0) : (⟨S4x2048x256x2x8, .f32⟩ : BufTy).Contents (Elt F) → (⟨S4x2048x256x1x8, .f32⟩ : BufTy).Contents (Elt F)),
    reshape main_v38 main_v39 rfl shapeCasts_S4x2048x256x1x8_S4x2048x256x8,
    binary main_v37 main_v39 main_v40 (addf : (⟨S4x2048x256x8, .f32⟩ : BufTy).Contents (Elt F) → (⟨S4x2048x256x8, .f32⟩ : BufTy).Contents (Elt F) → (⟨S4x2048x256x8, .f32⟩ : BufTy).Contents (Elt F)),
    binary main_v37 main_v39 main_v41 (subf : (⟨S4x2048x256x8, .f32⟩ : BufTy).Contents (Elt F) → (⟨S4x2048x256x8, .f32⟩ : BufTy).Contents (Elt F) → (⟨S4x2048x256x8, .f32⟩ : BufTy).Contents (Elt F)),
    unary main_v40 main_v42 (broadcastInDim S4x2048x256x1x8 ![0, 1, 2, 4] bcast_S4x2048x256x8_S4x2048x256x1x8_0_1_2_4 : (⟨S4x2048x256x8, .f32⟩ : BufTy).Contents (Elt F) → (⟨S4x2048x256x1x8, .f32⟩ : BufTy).Contents (Elt F)),
    unary main_v41 main_v43 (broadcastInDim S4x2048x256x1x8 ![0, 1, 2, 4] bcast_S4x2048x256x8_S4x2048x256x1x8_0_1_2_4 : (⟨S4x2048x256x8, .f32⟩ : BufTy).Contents (Elt F) → (⟨S4x2048x256x1x8, .f32⟩ : BufTy).Contents (Elt F)),
    binary main_v42 main_v43 main_v44 ((fun a b => concatenate S4x2048x256x2x8 3 [⟨S4x2048x256x1x8, a⟩, ⟨S4x2048x256x1x8, b⟩] concatenates_S4x2048x256x1x8_S4x2048x256x1x8_S4x2048x256x2x8_d3) : (⟨S4x2048x256x1x8, .f32⟩ : BufTy).Contents (Elt F) → (⟨S4x2048x256x1x8, .f32⟩ : BufTy).Contents (Elt F) → (⟨S4x2048x256x2x8, .f32⟩ : BufTy).Contents (Elt F)),
    reshape main_v44 main_v45 rfl shapeCasts_S4x2048x256x2x8_S4x2048x4096 ]

/-- Pass 4, half-width 16: cut the rows into pairs of halves, take the halves, add and subtract them, lay the results side by side, restore the rows. -/
abbrev opsPass4 : List (HloOp τ sig (Elt F)) :=
  [ reshape main_v45 main_v46 rfl shapeCasts_S4x2048x4096_S4x2048x128x2x16,
    unary main_v46 main_v47 ((extractStridedSlice S4x2048x128x1x16 ![0, 0, 0, 0, 0] · slices_S4x2048x128x2x16_S4x2048x128x1x16_0_0_0_0_0) : (⟨S4x2048x128x2x16, .f32⟩ : BufTy).Contents (Elt F) → (⟨S4x2048x128x1x16, .f32⟩ : BufTy).Contents (Elt F)),
    reshape main_v47 main_v48 rfl shapeCasts_S4x2048x128x1x16_S4x2048x128x16,
    unary main_v46 main_v49 ((extractStridedSlice S4x2048x128x1x16 ![0, 0, 0, 1, 0] · slices_S4x2048x128x2x16_S4x2048x128x1x16_0_0_0_1_0) : (⟨S4x2048x128x2x16, .f32⟩ : BufTy).Contents (Elt F) → (⟨S4x2048x128x1x16, .f32⟩ : BufTy).Contents (Elt F)),
    reshape main_v49 main_v50 rfl shapeCasts_S4x2048x128x1x16_S4x2048x128x16,
    binary main_v48 main_v50 main_v51 (addf : (⟨S4x2048x128x16, .f32⟩ : BufTy).Contents (Elt F) → (⟨S4x2048x128x16, .f32⟩ : BufTy).Contents (Elt F) → (⟨S4x2048x128x16, .f32⟩ : BufTy).Contents (Elt F)),
    binary main_v48 main_v50 main_v52 (subf : (⟨S4x2048x128x16, .f32⟩ : BufTy).Contents (Elt F) → (⟨S4x2048x128x16, .f32⟩ : BufTy).Contents (Elt F) → (⟨S4x2048x128x16, .f32⟩ : BufTy).Contents (Elt F)),
    unary main_v51 main_v53 (broadcastInDim S4x2048x128x1x16 ![0, 1, 2, 4] bcast_S4x2048x128x16_S4x2048x128x1x16_0_1_2_4 : (⟨S4x2048x128x16, .f32⟩ : BufTy).Contents (Elt F) → (⟨S4x2048x128x1x16, .f32⟩ : BufTy).Contents (Elt F)),
    unary main_v52 main_v54 (broadcastInDim S4x2048x128x1x16 ![0, 1, 2, 4] bcast_S4x2048x128x16_S4x2048x128x1x16_0_1_2_4 : (⟨S4x2048x128x16, .f32⟩ : BufTy).Contents (Elt F) → (⟨S4x2048x128x1x16, .f32⟩ : BufTy).Contents (Elt F)),
    binary main_v53 main_v54 main_v55 ((fun a b => concatenate S4x2048x128x2x16 3 [⟨S4x2048x128x1x16, a⟩, ⟨S4x2048x128x1x16, b⟩] concatenates_S4x2048x128x1x16_S4x2048x128x1x16_S4x2048x128x2x16_d3) : (⟨S4x2048x128x1x16, .f32⟩ : BufTy).Contents (Elt F) → (⟨S4x2048x128x1x16, .f32⟩ : BufTy).Contents (Elt F) → (⟨S4x2048x128x2x16, .f32⟩ : BufTy).Contents (Elt F)),
    reshape main_v55 main_v56 rfl shapeCasts_S4x2048x128x2x16_S4x2048x4096 ]

/-- Pass 5, half-width 32: cut the rows into pairs of halves, take the halves, add and subtract them, lay the results side by side, restore the rows. -/
abbrev opsPass5 : List (HloOp τ sig (Elt F)) :=
  [ reshape main_v56 main_v57 rfl shapeCasts_S4x2048x4096_S4x2048x64x2x32,
    unary main_v57 main_v58 ((extractStridedSlice S4x2048x64x1x32 ![0, 0, 0, 0, 0] · slices_S4x2048x64x2x32_S4x2048x64x1x32_0_0_0_0_0) : (⟨S4x2048x64x2x32, .f32⟩ : BufTy).Contents (Elt F) → (⟨S4x2048x64x1x32, .f32⟩ : BufTy).Contents (Elt F)),
    reshape main_v58 main_v59 rfl shapeCasts_S4x2048x64x1x32_S4x2048x64x32,
    unary main_v57 main_v60 ((extractStridedSlice S4x2048x64x1x32 ![0, 0, 0, 1, 0] · slices_S4x2048x64x2x32_S4x2048x64x1x32_0_0_0_1_0) : (⟨S4x2048x64x2x32, .f32⟩ : BufTy).Contents (Elt F) → (⟨S4x2048x64x1x32, .f32⟩ : BufTy).Contents (Elt F)),
    reshape main_v60 main_v61 rfl shapeCasts_S4x2048x64x1x32_S4x2048x64x32,
    binary main_v59 main_v61 main_v62 (addf : (⟨S4x2048x64x32, .f32⟩ : BufTy).Contents (Elt F) → (⟨S4x2048x64x32, .f32⟩ : BufTy).Contents (Elt F) → (⟨S4x2048x64x32, .f32⟩ : BufTy).Contents (Elt F)),
    binary main_v59 main_v61 main_v63 (subf : (⟨S4x2048x64x32, .f32⟩ : BufTy).Contents (Elt F) → (⟨S4x2048x64x32, .f32⟩ : BufTy).Contents (Elt F) → (⟨S4x2048x64x32, .f32⟩ : BufTy).Contents (Elt F)),
    unary main_v62 main_v64 (broadcastInDim S4x2048x64x1x32 ![0, 1, 2, 4] bcast_S4x2048x64x32_S4x2048x64x1x32_0_1_2_4 : (⟨S4x2048x64x32, .f32⟩ : BufTy).Contents (Elt F) → (⟨S4x2048x64x1x32, .f32⟩ : BufTy).Contents (Elt F)),
    unary main_v63 main_v65 (broadcastInDim S4x2048x64x1x32 ![0, 1, 2, 4] bcast_S4x2048x64x32_S4x2048x64x1x32_0_1_2_4 : (⟨S4x2048x64x32, .f32⟩ : BufTy).Contents (Elt F) → (⟨S4x2048x64x1x32, .f32⟩ : BufTy).Contents (Elt F)),
    binary main_v64 main_v65 main_v66 ((fun a b => concatenate S4x2048x64x2x32 3 [⟨S4x2048x64x1x32, a⟩, ⟨S4x2048x64x1x32, b⟩] concatenates_S4x2048x64x1x32_S4x2048x64x1x32_S4x2048x64x2x32_d3) : (⟨S4x2048x64x1x32, .f32⟩ : BufTy).Contents (Elt F) → (⟨S4x2048x64x1x32, .f32⟩ : BufTy).Contents (Elt F) → (⟨S4x2048x64x2x32, .f32⟩ : BufTy).Contents (Elt F)),
    reshape main_v66 main_v67 rfl shapeCasts_S4x2048x64x2x32_S4x2048x4096 ]

/-- Pass 6, half-width 64: cut the rows into pairs of halves, take the halves, add and subtract them, lay the results side by side, restore the rows. -/
abbrev opsPass6 : List (HloOp τ sig (Elt F)) :=
  [ reshape main_v67 main_v68 rfl shapeCasts_S4x2048x4096_S4x2048x32x2x64,
    unary main_v68 main_v69 ((extractStridedSlice S4x2048x32x1x64 ![0, 0, 0, 0, 0] · slices_S4x2048x32x2x64_S4x2048x32x1x64_0_0_0_0_0) : (⟨S4x2048x32x2x64, .f32⟩ : BufTy).Contents (Elt F) → (⟨S4x2048x32x1x64, .f32⟩ : BufTy).Contents (Elt F)),
    reshape main_v69 main_v70 rfl shapeCasts_S4x2048x32x1x64_S4x2048x32x64,
    unary main_v68 main_v71 ((extractStridedSlice S4x2048x32x1x64 ![0, 0, 0, 1, 0] · slices_S4x2048x32x2x64_S4x2048x32x1x64_0_0_0_1_0) : (⟨S4x2048x32x2x64, .f32⟩ : BufTy).Contents (Elt F) → (⟨S4x2048x32x1x64, .f32⟩ : BufTy).Contents (Elt F)),
    reshape main_v71 main_v72 rfl shapeCasts_S4x2048x32x1x64_S4x2048x32x64,
    binary main_v70 main_v72 main_v73 (addf : (⟨S4x2048x32x64, .f32⟩ : BufTy).Contents (Elt F) → (⟨S4x2048x32x64, .f32⟩ : BufTy).Contents (Elt F) → (⟨S4x2048x32x64, .f32⟩ : BufTy).Contents (Elt F)),
    binary main_v70 main_v72 main_v74 (subf : (⟨S4x2048x32x64, .f32⟩ : BufTy).Contents (Elt F) → (⟨S4x2048x32x64, .f32⟩ : BufTy).Contents (Elt F) → (⟨S4x2048x32x64, .f32⟩ : BufTy).Contents (Elt F)),
    unary main_v73 main_v75 (broadcastInDim S4x2048x32x1x64 ![0, 1, 2, 4] bcast_S4x2048x32x64_S4x2048x32x1x64_0_1_2_4 : (⟨S4x2048x32x64, .f32⟩ : BufTy).Contents (Elt F) → (⟨S4x2048x32x1x64, .f32⟩ : BufTy).Contents (Elt F)),
    unary main_v74 main_v76 (broadcastInDim S4x2048x32x1x64 ![0, 1, 2, 4] bcast_S4x2048x32x64_S4x2048x32x1x64_0_1_2_4 : (⟨S4x2048x32x64, .f32⟩ : BufTy).Contents (Elt F) → (⟨S4x2048x32x1x64, .f32⟩ : BufTy).Contents (Elt F)),
    binary main_v75 main_v76 main_v77 ((fun a b => concatenate S4x2048x32x2x64 3 [⟨S4x2048x32x1x64, a⟩, ⟨S4x2048x32x1x64, b⟩] concatenates_S4x2048x32x1x64_S4x2048x32x1x64_S4x2048x32x2x64_d3) : (⟨S4x2048x32x1x64, .f32⟩ : BufTy).Contents (Elt F) → (⟨S4x2048x32x1x64, .f32⟩ : BufTy).Contents (Elt F) → (⟨S4x2048x32x2x64, .f32⟩ : BufTy).Contents (Elt F)),
    reshape main_v77 main_v78 rfl shapeCasts_S4x2048x32x2x64_S4x2048x4096 ]

/-- Pass 7, half-width 128: cut the rows into pairs of halves, take the halves, add and subtract them, lay the results side by side, restore the rows. -/
abbrev opsPass7 : List (HloOp τ sig (Elt F)) :=
  [ reshape main_v78 main_v79 rfl shapeCasts_S4x2048x4096_S4x2048x16x2x128,
    unary main_v79 main_v80 ((extractStridedSlice S4x2048x16x1x128 ![0, 0, 0, 0, 0] · slices_S4x2048x16x2x128_S4x2048x16x1x128_0_0_0_0_0) : (⟨S4x2048x16x2x128, .f32⟩ : BufTy).Contents (Elt F) → (⟨S4x2048x16x1x128, .f32⟩ : BufTy).Contents (Elt F)),
    reshape main_v80 main_v81 rfl shapeCasts_S4x2048x16x1x128_S4x2048x16x128,
    unary main_v79 main_v82 ((extractStridedSlice S4x2048x16x1x128 ![0, 0, 0, 1, 0] · slices_S4x2048x16x2x128_S4x2048x16x1x128_0_0_0_1_0) : (⟨S4x2048x16x2x128, .f32⟩ : BufTy).Contents (Elt F) → (⟨S4x2048x16x1x128, .f32⟩ : BufTy).Contents (Elt F)),
    reshape main_v82 main_v83 rfl shapeCasts_S4x2048x16x1x128_S4x2048x16x128,
    binary main_v81 main_v83 main_v84 (addf : (⟨S4x2048x16x128, .f32⟩ : BufTy).Contents (Elt F) → (⟨S4x2048x16x128, .f32⟩ : BufTy).Contents (Elt F) → (⟨S4x2048x16x128, .f32⟩ : BufTy).Contents (Elt F)),
    binary main_v81 main_v83 main_v85 (subf : (⟨S4x2048x16x128, .f32⟩ : BufTy).Contents (Elt F) → (⟨S4x2048x16x128, .f32⟩ : BufTy).Contents (Elt F) → (⟨S4x2048x16x128, .f32⟩ : BufTy).Contents (Elt F)),
    unary main_v84 main_v86 (broadcastInDim S4x2048x16x1x128 ![0, 1, 2, 4] bcast_S4x2048x16x128_S4x2048x16x1x128_0_1_2_4 : (⟨S4x2048x16x128, .f32⟩ : BufTy).Contents (Elt F) → (⟨S4x2048x16x1x128, .f32⟩ : BufTy).Contents (Elt F)),
    unary main_v85 main_v87 (broadcastInDim S4x2048x16x1x128 ![0, 1, 2, 4] bcast_S4x2048x16x128_S4x2048x16x1x128_0_1_2_4 : (⟨S4x2048x16x128, .f32⟩ : BufTy).Contents (Elt F) → (⟨S4x2048x16x1x128, .f32⟩ : BufTy).Contents (Elt F)),
    binary main_v86 main_v87 main_v88 ((fun a b => concatenate S4x2048x16x2x128 3 [⟨S4x2048x16x1x128, a⟩, ⟨S4x2048x16x1x128, b⟩] concatenates_S4x2048x16x1x128_S4x2048x16x1x128_S4x2048x16x2x128_d3) : (⟨S4x2048x16x1x128, .f32⟩ : BufTy).Contents (Elt F) → (⟨S4x2048x16x1x128, .f32⟩ : BufTy).Contents (Elt F) → (⟨S4x2048x16x2x128, .f32⟩ : BufTy).Contents (Elt F)),
    reshape main_v88 main_v89 rfl shapeCasts_S4x2048x16x2x128_S4x2048x4096 ]

/-- Pass 8, half-width 256: cut the rows into pairs of halves, take the halves, add and subtract them, lay the results side by side, restore the rows. -/
abbrev opsPass8 : List (HloOp τ sig (Elt F)) :=
  [ reshape main_v89 main_v90 rfl shapeCasts_S4x2048x4096_S4x2048x8x2x256,
    unary main_v90 main_v91 ((extractStridedSlice S4x2048x8x1x256 ![0, 0, 0, 0, 0] · slices_S4x2048x8x2x256_S4x2048x8x1x256_0_0_0_0_0) : (⟨S4x2048x8x2x256, .f32⟩ : BufTy).Contents (Elt F) → (⟨S4x2048x8x1x256, .f32⟩ : BufTy).Contents (Elt F)),
    reshape main_v91 main_v92 rfl shapeCasts_S4x2048x8x1x256_S4x2048x8x256,
    unary main_v90 main_v93 ((extractStridedSlice S4x2048x8x1x256 ![0, 0, 0, 1, 0] · slices_S4x2048x8x2x256_S4x2048x8x1x256_0_0_0_1_0) : (⟨S4x2048x8x2x256, .f32⟩ : BufTy).Contents (Elt F) → (⟨S4x2048x8x1x256, .f32⟩ : BufTy).Contents (Elt F)),
    reshape main_v93 main_v94 rfl shapeCasts_S4x2048x8x1x256_S4x2048x8x256,
    binary main_v92 main_v94 main_v95 (addf : (⟨S4x2048x8x256, .f32⟩ : BufTy).Contents (Elt F) → (⟨S4x2048x8x256, .f32⟩ : BufTy).Contents (Elt F) → (⟨S4x2048x8x256, .f32⟩ : BufTy).Contents (Elt F)),
    binary main_v92 main_v94 main_v96 (subf : (⟨S4x2048x8x256, .f32⟩ : BufTy).Contents (Elt F) → (⟨S4x2048x8x256, .f32⟩ : BufTy).Contents (Elt F) → (⟨S4x2048x8x256, .f32⟩ : BufTy).Contents (Elt F)),
    unary main_v95 main_v97 (broadcastInDim S4x2048x8x1x256 ![0, 1, 2, 4] bcast_S4x2048x8x256_S4x2048x8x1x256_0_1_2_4 : (⟨S4x2048x8x256, .f32⟩ : BufTy).Contents (Elt F) → (⟨S4x2048x8x1x256, .f32⟩ : BufTy).Contents (Elt F)),
    unary main_v96 main_v98 (broadcastInDim S4x2048x8x1x256 ![0, 1, 2, 4] bcast_S4x2048x8x256_S4x2048x8x1x256_0_1_2_4 : (⟨S4x2048x8x256, .f32⟩ : BufTy).Contents (Elt F) → (⟨S4x2048x8x1x256, .f32⟩ : BufTy).Contents (Elt F)),
    binary main_v97 main_v98 main_v99 ((fun a b => concatenate S4x2048x8x2x256 3 [⟨S4x2048x8x1x256, a⟩, ⟨S4x2048x8x1x256, b⟩] concatenates_S4x2048x8x1x256_S4x2048x8x1x256_S4x2048x8x2x256_d3) : (⟨S4x2048x8x1x256, .f32⟩ : BufTy).Contents (Elt F) → (⟨S4x2048x8x1x256, .f32⟩ : BufTy).Contents (Elt F) → (⟨S4x2048x8x2x256, .f32⟩ : BufTy).Contents (Elt F)),
    reshape main_v99 main_v100 rfl shapeCasts_S4x2048x8x2x256_S4x2048x4096 ]

/-- Pass 9, half-width 512: cut the rows into pairs of halves, take the halves, add and subtract them, lay the results side by side, restore the rows. -/
abbrev opsPass9 : List (HloOp τ sig (Elt F)) :=
  [ reshape main_v100 main_v101 rfl shapeCasts_S4x2048x4096_S4x2048x4x2x512,
    unary main_v101 main_v102 ((extractStridedSlice S4x2048x4x1x512 ![0, 0, 0, 0, 0] · slices_S4x2048x4x2x512_S4x2048x4x1x512_0_0_0_0_0) : (⟨S4x2048x4x2x512, .f32⟩ : BufTy).Contents (Elt F) → (⟨S4x2048x4x1x512, .f32⟩ : BufTy).Contents (Elt F)),
    reshape main_v102 main_v103 rfl shapeCasts_S4x2048x4x1x512_S4x2048x4x512,
    unary main_v101 main_v104 ((extractStridedSlice S4x2048x4x1x512 ![0, 0, 0, 1, 0] · slices_S4x2048x4x2x512_S4x2048x4x1x512_0_0_0_1_0) : (⟨S4x2048x4x2x512, .f32⟩ : BufTy).Contents (Elt F) → (⟨S4x2048x4x1x512, .f32⟩ : BufTy).Contents (Elt F)),
    reshape main_v104 main_v105 rfl shapeCasts_S4x2048x4x1x512_S4x2048x4x512,
    binary main_v103 main_v105 main_v106 (addf : (⟨S4x2048x4x512, .f32⟩ : BufTy).Contents (Elt F) → (⟨S4x2048x4x512, .f32⟩ : BufTy).Contents (Elt F) → (⟨S4x2048x4x512, .f32⟩ : BufTy).Contents (Elt F)),
    binary main_v103 main_v105 main_v107 (subf : (⟨S4x2048x4x512, .f32⟩ : BufTy).Contents (Elt F) → (⟨S4x2048x4x512, .f32⟩ : BufTy).Contents (Elt F) → (⟨S4x2048x4x512, .f32⟩ : BufTy).Contents (Elt F)),
    unary main_v106 main_v108 (broadcastInDim S4x2048x4x1x512 ![0, 1, 2, 4] bcast_S4x2048x4x512_S4x2048x4x1x512_0_1_2_4 : (⟨S4x2048x4x512, .f32⟩ : BufTy).Contents (Elt F) → (⟨S4x2048x4x1x512, .f32⟩ : BufTy).Contents (Elt F)),
    unary main_v107 main_v109 (broadcastInDim S4x2048x4x1x512 ![0, 1, 2, 4] bcast_S4x2048x4x512_S4x2048x4x1x512_0_1_2_4 : (⟨S4x2048x4x512, .f32⟩ : BufTy).Contents (Elt F) → (⟨S4x2048x4x1x512, .f32⟩ : BufTy).Contents (Elt F)),
    binary main_v108 main_v109 main_v110 ((fun a b => concatenate S4x2048x4x2x512 3 [⟨S4x2048x4x1x512, a⟩, ⟨S4x2048x4x1x512, b⟩] concatenates_S4x2048x4x1x512_S4x2048x4x1x512_S4x2048x4x2x512_d3) : (⟨S4x2048x4x1x512, .f32⟩ : BufTy).Contents (Elt F) → (⟨S4x2048x4x1x512, .f32⟩ : BufTy).Contents (Elt F) → (⟨S4x2048x4x2x512, .f32⟩ : BufTy).Contents (Elt F)),
    reshape main_v110 main_v111 rfl shapeCasts_S4x2048x4x2x512_S4x2048x4096 ]

/-- Pass 10, half-width 1024: cut the rows into pairs of halves, take the halves, add and subtract them, lay the results side by side, restore the rows. -/
abbrev opsPass10 : List (HloOp τ sig (Elt F)) :=
  [ reshape main_v111 main_v112 rfl shapeCasts_S4x2048x4096_S4x2048x2x2x1024,
    unary main_v112 main_v113 ((extractStridedSlice S4x2048x2x1x1024 ![0, 0, 0, 0, 0] · slices_S4x2048x2x2x1024_S4x2048x2x1x1024_0_0_0_0_0) : (⟨S4x2048x2x2x1024, .f32⟩ : BufTy).Contents (Elt F) → (⟨S4x2048x2x1x1024, .f32⟩ : BufTy).Contents (Elt F)),
    reshape main_v113 main_v114 rfl shapeCasts_S4x2048x2x1x1024_S4x2048x2x1024,
    unary main_v112 main_v115 ((extractStridedSlice S4x2048x2x1x1024 ![0, 0, 0, 1, 0] · slices_S4x2048x2x2x1024_S4x2048x2x1x1024_0_0_0_1_0) : (⟨S4x2048x2x2x1024, .f32⟩ : BufTy).Contents (Elt F) → (⟨S4x2048x2x1x1024, .f32⟩ : BufTy).Contents (Elt F)),
    reshape main_v115 main_v116 rfl shapeCasts_S4x2048x2x1x1024_S4x2048x2x1024,
    binary main_v114 main_v116 main_v117 (addf : (⟨S4x2048x2x1024, .f32⟩ : BufTy).Contents (Elt F) → (⟨S4x2048x2x1024, .f32⟩ : BufTy).Contents (Elt F) → (⟨S4x2048x2x1024, .f32⟩ : BufTy).Contents (Elt F)),
    binary main_v114 main_v116 main_v118 (subf : (⟨S4x2048x2x1024, .f32⟩ : BufTy).Contents (Elt F) → (⟨S4x2048x2x1024, .f32⟩ : BufTy).Contents (Elt F) → (⟨S4x2048x2x1024, .f32⟩ : BufTy).Contents (Elt F)),
    unary main_v117 main_v119 (broadcastInDim S4x2048x2x1x1024 ![0, 1, 2, 4] bcast_S4x2048x2x1024_S4x2048x2x1x1024_0_1_2_4 : (⟨S4x2048x2x1024, .f32⟩ : BufTy).Contents (Elt F) → (⟨S4x2048x2x1x1024, .f32⟩ : BufTy).Contents (Elt F)),
    unary main_v118 main_v120 (broadcastInDim S4x2048x2x1x1024 ![0, 1, 2, 4] bcast_S4x2048x2x1024_S4x2048x2x1x1024_0_1_2_4 : (⟨S4x2048x2x1024, .f32⟩ : BufTy).Contents (Elt F) → (⟨S4x2048x2x1x1024, .f32⟩ : BufTy).Contents (Elt F)),
    binary main_v119 main_v120 main_v121 ((fun a b => concatenate S4x2048x2x2x1024 3 [⟨S4x2048x2x1x1024, a⟩, ⟨S4x2048x2x1x1024, b⟩] concatenates_S4x2048x2x1x1024_S4x2048x2x1x1024_S4x2048x2x2x1024_d3) : (⟨S4x2048x2x1x1024, .f32⟩ : BufTy).Contents (Elt F) → (⟨S4x2048x2x1x1024, .f32⟩ : BufTy).Contents (Elt F) → (⟨S4x2048x2x2x1024, .f32⟩ : BufTy).Contents (Elt F)),
    reshape main_v121 main_v122 rfl shapeCasts_S4x2048x2x2x1024_S4x2048x4096 ]

/-- Pass 11, half-width 2048: cut the rows into pairs of halves, take the halves, add and subtract them, lay the results side by side, restore the rows. -/
abbrev opsPass11 : List (HloOp τ sig (Elt F)) :=
  [ reshape main_v122 main_v123 rfl shapeCasts_S4x2048x4096_S4x2048x1x2x2048,
    unary main_v123 main_v124 ((extractStridedSlice S4x2048x1x1x2048 ![0, 0, 0, 0, 0] · slices_S4x2048x1x2x2048_S4x2048x1x1x2048_0_0_0_0_0) : (⟨S4x2048x1x2x2048, .f32⟩ : BufTy).Contents (Elt F) → (⟨S4x2048x1x1x2048, .f32⟩ : BufTy).Contents (Elt F)),
    reshape main_v124 main_v125 rfl shapeCasts_S4x2048x1x1x2048_S4x2048x1x2048,
    unary main_v123 main_v126 ((extractStridedSlice S4x2048x1x1x2048 ![0, 0, 0, 1, 0] · slices_S4x2048x1x2x2048_S4x2048x1x1x2048_0_0_0_1_0) : (⟨S4x2048x1x2x2048, .f32⟩ : BufTy).Contents (Elt F) → (⟨S4x2048x1x1x2048, .f32⟩ : BufTy).Contents (Elt F)),
    reshape main_v126 main_v127 rfl shapeCasts_S4x2048x1x1x2048_S4x2048x1x2048,
    binary main_v125 main_v127 main_v128 (addf : (⟨S4x2048x1x2048, .f32⟩ : BufTy).Contents (Elt F) → (⟨S4x2048x1x2048, .f32⟩ : BufTy).Contents (Elt F) → (⟨S4x2048x1x2048, .f32⟩ : BufTy).Contents (Elt F)),
    binary main_v125 main_v127 main_v129 (subf : (⟨S4x2048x1x2048, .f32⟩ : BufTy).Contents (Elt F) → (⟨S4x2048x1x2048, .f32⟩ : BufTy).Contents (Elt F) → (⟨S4x2048x1x2048, .f32⟩ : BufTy).Contents (Elt F)),
    unary main_v128 main_v130 (broadcastInDim S4x2048x1x1x2048 ![0, 1, 2, 4] bcast_S4x2048x1x2048_S4x2048x1x1x2048_0_1_2_4 : (⟨S4x2048x1x2048, .f32⟩ : BufTy).Contents (Elt F) → (⟨S4x2048x1x1x2048, .f32⟩ : BufTy).Contents (Elt F)),
    unary main_v129 main_v131 (broadcastInDim S4x2048x1x1x2048 ![0, 1, 2, 4] bcast_S4x2048x1x2048_S4x2048x1x1x2048_0_1_2_4 : (⟨S4x2048x1x2048, .f32⟩ : BufTy).Contents (Elt F) → (⟨S4x2048x1x1x2048, .f32⟩ : BufTy).Contents (Elt F)),
    binary main_v130 main_v131 main_v132 ((fun a b => concatenate S4x2048x1x2x2048 3 [⟨S4x2048x1x1x2048, a⟩, ⟨S4x2048x1x1x2048, b⟩] concatenates_S4x2048x1x1x2048_S4x2048x1x1x2048_S4x2048x1x2x2048_d3) : (⟨S4x2048x1x1x2048, .f32⟩ : BufTy).Contents (Elt F) → (⟨S4x2048x1x1x2048, .f32⟩ : BufTy).Contents (Elt F) → (⟨S4x2048x1x2x2048, .f32⟩ : BufTy).Contents (Elt F)),
    reshape main_v132 main_v133 rfl shapeCasts_S4x2048x1x2x2048_S4x2048x4096 ]

/-- The scaling, the product with the weight and the bias. -/
abbrev opsTail : List (HloOp τ sig (Elt F)) :=
  [ unary main_v1 main_v134 (broadcastInDim S4x2048x4096 ![] bcast_S_S4x2048x4096 : (⟨S_, .f32⟩ : BufTy).Contents (Elt F) → (⟨S4x2048x4096, .f32⟩ : BufTy).Contents (Elt F)),
    binary main_v133 main_v134 main_v135 (mulf : (⟨S4x2048x4096, .f32⟩ : BufTy).Contents (Elt F) → (⟨S4x2048x4096, .f32⟩ : BufTy).Contents (Elt F) → (⟨S4x2048x4096, .f32⟩ : BufTy).Contents (Elt F)),
    binary main_v135 main_arg1 main_v136 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg2 main_v137 (broadcastInDim S1x1x4096 ![2] bcast_S4096_S1x1x4096_2 : (⟨S4096, .f32⟩ : BufTy).Contents (Elt F) → (⟨S1x1x4096, .f32⟩ : BufTy).Contents (Elt F)),
    unary main_v137 main_v138 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v136 main_v138 main_v139 (addf : (⟨S4x2048x4096, .f32⟩ : BufTy).Contents (Elt F) → (⟨S4x2048x4096, .f32⟩ : BufTy).Contents (Elt F) → (⟨S4x2048x4096, .f32⟩ : BufTy).Contents (Elt F)) ]

end Cert.ReferenceIdeal.RefOps

end
-- ==== Proof.RefStage.lean ====
/-
  One butterfly pass the way the reference spells it: the last axis of length 4096 is cut into `Q` groups
  of two halves of width `H` (a reshape to [4, 2048, Q, 2, H]); the two halves are sliced out, added and
  subtracted, laid side by side again (a concatenation along the axis of length 2) and the array is
  reshaped back.  Entry `d = (a·2 + t)·H + r` of a row is entry `(a, t, r)` of the reshaped row, so the
  lower half `t = 0` receives `f d + f (d + H)` and the upper half `t = 1` receives `f (d - H) - f d`:
  the pass `bfly H` on every row.
-/
import Idealize.ShloMosaic.Lib.Pipeline.Value
import Idealize.ShloMosaic.Lib.ValueIdx
import proofs.«179667_j39986145526404_1_alg».proof.Proof.Spec

noncomputable section

namespace Cert.Fwht

open Idealize.ShloMosaic Idealize.ShloMosaic.ValueIdx

/-- The array of activations, [4, 2048, 4096]. -/
abbrev A3 : Shape := ⟨3, ![4, 2048, 4096]⟩
/-- Its rows cut into `Q` groups of two halves of width `H`. -/
abbrev A5 (Q H : Nat) : Shape := ⟨5, ![4, 2048, Q, 2, H]⟩
/-- One half of every group, the axis of the halves kept with extent one. -/
abbrev A5h (Q H : Nat) : Shape := ⟨5, ![4, 2048, Q, 1, H]⟩
/-- One half of every group. -/
abbrev A4 (Q H : Nat) : Shape := ⟨4, ![4, 2048, Q, H]⟩

/-- Half `t` (0 the lower, 1 the upper) of every group of the array cut into groups. -/
def refHalf (Q H t : Nat) (h1 : A3.ShapeCasts (A5 Q H)) (hs : (A5 Q H).Slices ![0, 0, 0, t, 0] (A5h Q H))
    (h2 : (A5h Q H).ShapeCasts (A4 Q H)) (x : FVec Ideal A3 .f32) : FVec Ideal (A4 Q H) .f32 :=
  shapeCast (A4 Q H) (extractStridedSlice (A5h Q H) ![0, 0, 0, t, 0] (shapeCast (A5 Q H) x h1) hs) h2

/-- One pass as the reference spells it, from the two halves `lo`, `hi`. -/
def refJoin (Q H : Nat) (hb : (A4 Q H).BroadcastsInDim (A5h Q H) (![0, 1, 2, 4] : Fin 4 → Fin (A5h Q H).rank))
    (hc : Shape.Concatenates [A5h Q H, A5h Q H] (A5 Q H) 3) (h3 : (A5 Q H).ShapeCasts A3)
    (lo hi : FVec Ideal (A4 Q H) .f32) : FVec Ideal A3 .f32 :=
  shapeCast A3 (concatenate (A5 Q H) 3
    [⟨A5h Q H, broadcastInDim (A5h Q H) ![0, 1, 2, 4] hb (addf lo hi)⟩,
     ⟨A5h Q H, broadcastInDim (A5h Q H) ![0, 1, 2, 4] hb (subf lo hi)⟩] hc) h3

/-- One pass as the reference spells it. -/
def refStage (Q H : Nat) (h1 : A3.ShapeCasts (A5 Q H)) (hs0 : (A5 Q H).Slices ![0, 0, 0, 0, 0] (A5h Q H))
    (hs1 : (A5 Q H).Slices ![0, 0, 0, 1, 0] (A5h Q H)) (h2 : (A5h Q H).ShapeCasts (A4 Q H))
    (hb : (A4 Q H).BroadcastsInDim (A5h Q H) (![0, 1, 2, 4] : Fin 4 → Fin (A5h Q H).rank))
    (hc : Shape.Concatenates [A5h Q H, A5h Q H] (A5 Q H) 3) (h3 : (A5 Q H).ShapeCasts A3)
    (x : FVec Ideal A3 .f32) : FVec Ideal A3 .f32 :=
  refJoin Q H hb hc h3 (refHalf Q H 0 h1 hs0 h2 x) (refHalf Q H 1 h1 hs1 h2 x)

/-- Row-major positions: entry `(R, A, T, r)` of the rows cut into `Q` groups of two halves of width `H` sits at
    position `D = (A·2 + T)·H + r` of row `R` when the row has `N = Q·2·H` entries. -/
theorem position_eq (R A T r Q H N D : Nat) (hN : N = Q * 2 * H) (hD : D = (A * 2 + T) * H + r) :
    (((R * Q + A) * 2 + T) * H + r) = R * N + D := by
  subst hN hD; ring

/-- The array cut into groups, read at group `a`, half `t`, offset `r` of row `(b, s)`: entry `(a·2 + t)·H + r` of the row. -/
theorem split_apply (Q H : Nat) (hQH : Q * 2 * H = 4096) (h1 : A3.ShapeCasts (A5 Q H)) (x : FVec Ideal A3 .f32)
    (b : Fin 4) (s : Fin 2048) (a : Fin Q) (t : Fin 2) (r : Fin H) (e : Fin 4096)
    (he : e.val = (a.val * 2 + t.val) * H + r.val) :
    shapeCast (A5 Q H) x h1 (ix5 b s a t r) = x (ix3 b s e) :=
  shapeCast_apply x h1 (ix5 b s a t r) (ix3 b s e) (by
    rw [Shape.rowMajor_val_three, Shape.rowMajor_val_five]
    show (b.val * 2048 + s.val) * 4096 + e.val = (((b.val * 2048 + s.val) * Q + a.val) * 2 + t.val) * H + r.val
    exact (position_eq _ _ _ _ _ _ _ _ hQH.symm he).symm)

/-- Half `t` of the groups, read at group `a`, offset `r` of row `(b, s)`. -/
theorem refHalf_apply (Q H : Nat) (hQH : Q * 2 * H = 4096) (t : Nat) (ht : t < 2) (h1 : A3.ShapeCasts (A5 Q H))
    (hs : (A5 Q H).Slices ![0, 0, 0, t, 0] (A5h Q H)) (h2 : (A5h Q H).ShapeCasts (A4 Q H)) (x : FVec Ideal A3 .f32)
    (b : Fin 4) (s : Fin 2048) (a : Fin Q) (r : Fin H) (e : Fin 4096) (he : e.val = (a.val * 2 + t) * H + r.val) :
    refHalf Q H t h1 hs h2 x (ix4 b s a r) = x (ix3 b s e) := by
  unfold refHalf
  refine (shapeCast_apply _ h2 (ix4 b s a r) (ix5 b s a (0 : Fin 1) r) (by
    rw [Shape.rowMajor_val_five, Shape.rowMajor_val_four]
    show (((b.val * 2048 + s.val) * Q + a.val) * 1 + 0) * H + r.val = ((b.val * 2048 + s.val) * Q + a.val) * H + r.val
    ring)).trans ?_
  refine (extractStridedSlice_apply _ _ hs (ix5 b s a (0 : Fin 1) r) (ix5 b s a (⟨t, ht⟩ : Fin 2) r) (fun a' => by
    match a' with
    | ⟨0, _⟩ => show b.val = 0 + b.val; omega
    | ⟨1, _⟩ => show s.val = 0 + s.val; omega
    | ⟨2, _⟩ => show a.val = 0 + a.val; omega
    | ⟨3, _⟩ => show t = t + 0; omega
    | ⟨4, _⟩ => show r.val = 0 + r.val; omega)).trans ?_
  exact split_apply Q H hQH h1 x b s a ⟨t, ht⟩ r e he

/-- A half laid back with the axis of the halves at extent one, read at `(b, s, a, 0, r)`. -/
theorem spread_apply (Q H : Nat) (hb : (A4 Q H).BroadcastsInDim (A5h Q H) (![0, 1, 2, 4] : Fin 4 → Fin (A5h Q H).rank))
    (y : FVec Ideal (A4 Q H) .f32) (b : Fin 4) (s : Fin 2048) (a : Fin Q) (r : Fin H) :
    broadcastInDim (A5h Q H) ![0, 1, 2, 4] hb y (ix5 b s a (0 : Fin 1) r) = y (ix4 b s a r) :=
  broadcastInDim_apply _ hb y (ix5 b s a (0 : Fin 1) r) (ix4 b s a r) (fun a' => by
    match a' with
    | ⟨0, _⟩ => rfl
    | ⟨1, _⟩ => rfl
    | ⟨2, _⟩ =>
      show a.val = if Q = 1 then 0 else a.val
      have := a.isLt
      split_ifs <;> omega
    | ⟨3, _⟩ =>
      show r.val = if H = 1 then 0 else r.val
      have := r.isLt
      split_ifs <;> omega)

/-- The pass from its two halves, at the lower entry of a pair: the sum. -/
theorem refJoin_apply_lower (Q H : Nat) (hQH : Q * 2 * H = 4096)
    (hb : (A4 Q H).BroadcastsInDim (A5h Q H) (![0, 1, 2, 4] : Fin 4 → Fin (A5h Q H).rank))
    (hc : Shape.Concatenates [A5h Q H, A5h Q H] (A5 Q H) 3) (h3 : (A5 Q H).ShapeCasts A3)
    (lo hi : FVec Ideal (A4 Q H) .f32) (b : Fin 4) (s : Fin 2048) (a : Fin Q) (r : Fin H) (e : Fin 4096)
    (he : e.val = (a.val * 2 + 0) * H + r.val) :
    refJoin Q H hb hc h3 lo hi (ix3 b s e) = lo (ix4 b s a r) + hi (ix4 b s a r) := by
  unfold refJoin
  refine (shapeCast_apply _ h3 (ix3 b s e) (ix5 b s a (0 : Fin 2) r) (by
    rw [Shape.rowMajor_val_three, Shape.rowMajor_val_five]
    show (((b.val * 2048 + s.val) * Q + a.val) * 2 + 0) * H + r.val = (b.val * 2048 + s.val) * 4096 + e.val
    exact position_eq _ _ _ _ _ _ _ _ hQH.symm he)).trans ?_
  refine (concatenate_pair_apply_left (3 : Fin (A5 Q H).rank) _ _ hc (ix5 b s a (0 : Fin 2) r) rfl
    (ix5 b s a (0 : Fin 1) r) (fun b' => by
      match b' with
      | ⟨0, _⟩ => rfl
      | ⟨1, _⟩ => rfl
      | ⟨2, _⟩ => rfl
      | ⟨3, _⟩ => rfl
      | ⟨4, _⟩ => rfl)).trans ?_
  rw [spread_apply]
  rfl

/-- The pass from its two halves, at the upper entry of a pair: the difference. -/
theorem refJoin_apply_upper (Q H : Nat) (hQH : Q * 2 * H = 4096)
    (hb : (A4 Q H).BroadcastsInDim (A5h Q H) (![0, 1, 2, 4] : Fin 4 → Fin (A5h Q H).rank))
    (hc : Shape.Concatenates [A5h Q H, A5h Q H] (A5 Q H) 3) (h3 : (A5 Q H).ShapeCasts A3)
    (lo hi : FVec Ideal (A4 Q H) .f32) (b : Fin 4) (s : Fin 2048) (a : Fin Q) (r : Fin H) (e : Fin 4096)
    (he : e.val = (a.val * 2 + 1) * H + r.val) :
    refJoin Q H hb hc h3 lo hi (ix3 b s e) = lo (ix4 b s a r) - hi (ix4 b s a r) := by
  unfold refJoin
  refine (shapeCast_apply _ h3 (ix3 b s e) (ix5 b s a (1 : Fin 2) r) (by
    rw [Shape.rowMajor_val_three, Shape.rowMajor_val_five]
    show (((b.val * 2048 + s.val) * Q + a.val) * 2 + 1) * H + r.val = (b.val * 2048 + s.val) * 4096 + e.val
    exact position_eq _ _ _ _ _ _ _ _ hQH.symm he)).trans ?_
  refine (concatenate_pair_apply_right (3 : Fin (A5 Q H).rank) _ _ hc (ix5 b s a (1 : Fin 2) r) rfl rfl
    (ix5 b s a (0 : Fin 1) r) (fun b' hb' => by
      match b' with
      | ⟨0, _⟩ => rfl
      | ⟨1, _⟩ => rfl
      | ⟨2, _⟩ => rfl
      | ⟨3, _⟩ => exact absurd rfl hb'
      | ⟨4, _⟩ => rfl) rfl).trans ?_
  rw [spread_apply]
  rfl

/-- The reference's pass is the butterfly pass of half-width `H` on every row. -/
theorem refStage_apply (Q H : Nat) (hQH : Q * 2 * H = 4096) (h1 : A3.ShapeCasts (A5 Q H))
    (hs0 : (A5 Q H).Slices ![0, 0, 0, 0, 0] (A5h Q H)) (hs1 : (A5 Q H).Slices ![0, 0, 0, 1, 0] (A5h Q H))
    (h2 : (A5h Q H).ShapeCasts (A4 Q H))
    (hb : (A4 Q H).BroadcastsInDim (A5h Q H) (![0, 1, 2, 4] : Fin 4 → Fin (A5h Q H).rank))
    (hc : Shape.Concatenates [A5h Q H, A5h Q H] (A5 Q H) 3) (h3 : (A5 Q H).ShapeCasts A3)
    (x : FVec Ideal A3 .f32) (b : Fin 4) (s : Fin 2048) (d : Fin 4096) :
    refStage Q H h1 hs0 hs1 h2 hb hc h3 x (ix3 b s d) = bfly H (fun d' => x (ix3 b s d')) d := by
  have hHpos : 0 < H := by
    rcases Nat.eq_zero_or_pos H with h | h
    · subst h; simp at hQH
    · exact h
  have hdlt : d.val < 4096 := d.isLt
  -- the entry's group, half and offset
  obtain ⟨u, hu⟩ : ∃ u, u = d.val / H := ⟨_, rfl⟩
  obtain ⟨a, ha⟩ : ∃ a, a = u / 2 := ⟨_, rfl⟩
  obtain ⟨r, hr⟩ : ∃ r, r = d.val % H := ⟨_, rfl⟩
  have hd1 : d.val = H * u + r := by rw [hu, hr]; exact (Nat.div_add_mod d.val H).symm
  have hrlt : r < H := by rw [hr]; exact Nat.mod_lt _ hHpos
  have hult : u < Q * 2 := by rw [hu]; exact (Nat.div_lt_iff_lt_mul hHpos).mpr (by rw [hQH]; exact hdlt)
  have halt : a < Q := by omega
  have hpair : (a + 1) * 2 * H ≤ Q * 2 * H := Nat.mul_le_mul_right H (Nat.mul_le_mul_right 2 (by omega))
  have e2 : (a + 1) * 2 * H = a * 2 * H + 2 * H := by ring
  have e0 : (a * 2 + 0) * H = a * 2 * H := by ring
  have e1 : (a * 2 + 1) * H = a * 2 * H + H := by ring
  unfold refStage
  by_cases hlow : (d.val / H) % 2 = 0
  · -- the lower entry of its pair: u = 2 a
    have hu2 : u = 2 * a := by omega
    have hd : d.val = (a * 2 + 0) * H + r := by rw [hd1, hu2]; ring
    have hup : (d.val + H) % 4096 = (a * 2 + 1) * H + r := by
      rw [Nat.mod_eq_of_lt (by omega)]; omega
    unfold bfly
    rw [if_pos hlow, refJoin_apply_lower Q H hQH hb hc h3 _ _ b s ⟨a, halt⟩ ⟨r, hrlt⟩ d hd,
      refHalf_apply Q H hQH 0 (by norm_num) h1 hs0 h2 x b s ⟨a, halt⟩ ⟨r, hrlt⟩ d hd,
      refHalf_apply Q H hQH 1 (by norm_num) h1 hs1 h2 x b s ⟨a, halt⟩ ⟨r, hrlt⟩
        ⟨(d.val + H) % 4096, Nat.mod_lt _ (by norm_num)⟩ hup]
  · -- the upper entry: u = 2 a + 1
    have hu2 : u = 2 * a + 1 := by omega
    have hd : d.val = (a * 2 + 1) * H + r := by rw [hd1, hu2]; ring
    have hlo : (d.val + 4096 - H) % 4096 = (a * 2 + 0) * H + r := by
      have : d.val + 4096 - H = (a * 2 * H + r) + 4096 := by omega
      rw [this, Nat.add_mod_right, Nat.mod_eq_of_lt (by omega)]; omega
    unfold bfly
    rw [if_neg hlow, refJoin_apply_upper Q H hQH hb hc h3 _ _ b s ⟨a, halt⟩ ⟨r, hrlt⟩ d hd,
      refHalf_apply Q H hQH 0 (by norm_num) h1 hs0 h2 x b s ⟨a, halt⟩ ⟨r, hrlt⟩
        ⟨(d.val + 4096 - H) % 4096, Nat.mod_lt _ (by norm_num)⟩ hlo,
      refHalf_apply Q H hQH 1 (by norm_num) h1 hs1 h2 x b s ⟨a, halt⟩ ⟨r, hrlt⟩ d hd]

end Cert.Fwht

end
-- ==== Proof.RefChain.lean ====
/-
  The reference's twelve passes in its own order, half-widths 1, 2, 4, …, 2048, each the butterfly
  pass on every row: together the transform of every row.
-/
import proofs.«179667_j39986145526404_1_alg».proof.Proof.Gen.ReferenceIdeal
import proofs.«179667_j39986145526404_1_alg».proof.Proof.RefStage

noncomputable section

namespace Cert.ReferenceIdeal.RefChain

open Idealize.ShloMosaic Idealize.ShloMosaic.ValueIdx Cert.ReferenceIdeal Cert.ReferenceIdeal.Gen Cert.Fwht

/-- Pass 0 of the reference: half-width 1, 2048 groups in a row. -/
def pass0 (x : FVec Ideal A3 .f32) : FVec Ideal A3 .f32 :=
  refStage 2048 1 shapeCasts_S4x2048x4096_S4x2048x2048x2x1 slices_S4x2048x2048x2x1_S4x2048x2048x1x1_0_0_0_0_0
    slices_S4x2048x2048x2x1_S4x2048x2048x1x1_0_0_0_1_0 shapeCasts_S4x2048x2048x1x1_S4x2048x2048x1
    bcast_S4x2048x2048x1_S4x2048x2048x1x1_0_1_2_4 concatenates_S4x2048x2048x1x1_S4x2048x2048x1x1_S4x2048x2048x2x1_d3
    shapeCasts_S4x2048x2048x2x1_S4x2048x4096 x

/-- On every row it is the butterfly pass of half-width 1. -/
theorem pass0_rows (x : FVec Ideal A3 .f32) (b : Fin 4) (s : Fin 2048) :
    (fun d => pass0 x (ix3 b s d)) = bfly 1 (fun d => x (ix3 b s d)) :=
  funext fun d => refStage_apply 2048 1 (by norm_num) _ _ _ _ _ _ _ x b s d

/-- Pass 1 of the reference: half-width 2, 1024 groups in a row. -/
def pass1 (x : FVec Ideal A3 .f32) : FVec Ideal A3 .f32 :=
  refStage 1024 2 shapeCasts_S4x2048x4096_S4x2048x1024x2x2 slices_S4x2048x1024x2x2_S4x2048x1024x1x2_0_0_0_0_0
    slices_S4x2048x1024x2x2_S4x2048x1024x1x2_0_0_0_1_0 shapeCasts_S4x2048x1024x1x2_S4x2048x1024x2
    bcast_S4x2048x1024x2_S4x2048x1024x1x2_0_1_2_4 concatenates_S4x2048x1024x1x2_S4x2048x1024x1x2_S4x2048x1024x2x2_d3
    shapeCasts_S4x2048x1024x2x2_S4x2048x4096 x

/-- On every row it is the butterfly pass of half-width 2. -/
theorem pass1_rows (x : FVec Ideal A3 .f32) (b : Fin 4) (s : Fin 2048) :
    (fun d => pass1 x (ix3 b s d)) = bfly 2 (fun d => x (ix3 b s d)) :=
  funext fun d => refStage_apply 1024 2 (by norm_num) _ _ _ _ _ _ _ x b s d

/-- Pass 2 of the reference: half-width 4, 512 groups in a row. -/
def pass2 (x : FVec Ideal A3 .f32) : FVec Ideal A3 .f32 :=
  refStage 512 4 shapeCasts_S4x2048x4096_S4x2048x512x2x4 slices_S4x2048x512x2x4_S4x2048x512x1x4_0_0_0_0_0
    slices_S4x2048x512x2x4_S4x2048x512x1x4_0_0_0_1_0 shapeCasts_S4x2048x512x1x4_S4x2048x512x4
    bcast_S4x2048x512x4_S4x2048x512x1x4_0_1_2_4 concatenates_S4x2048x512x1x4_S4x2048x512x1x4_S4x2048x512x2x4_d3
    shapeCasts_S4x2048x512x2x4_S4x2048x4096 x

/-- On every row it is the butterfly pass of half-width 4. -/
theorem pass2_rows (x : FVec Ideal A3 .f32) (b : Fin 4) (s : Fin 2048) :
    (fun d => pass2 x (ix3 b s d)) = bfly 4 (fun d => x (ix3 b s d)) :=
  funext fun d => refStage_apply 512 4 (by norm_num) _ _ _ _ _ _ _ x b s d

/-- Pass 3 of the reference: half-width 8, 256 groups in a row. -/
def pass3 (x : FVec Ideal A3 .f32) : FVec Ideal A3 .f32 :=
  refStage 256 8 shapeCasts_S4x2048x4096_S4x2048x256x2x8 slices_S4x2048x256x2x8_S4x2048x256x1x8_0_0_0_0_0
    slices_S4x2048x256x2x8_S4x2048x256x1x8_0_0_0_1_0 shapeCasts_S4x2048x256x1x8_S4x2048x256x8
    bcast_S4x2048x256x8_S4x2048x256x1x8_0_1_2_4 concatenates_S4x2048x256x1x8_S4x2048x256x1x8_S4x2048x256x2x8_d3
    shapeCasts_S4x2048x256x2x8_S4x2048x4096 x

/-- On every row it is the butterfly pass of half-width 8. -/
theorem pass3_rows (x : FVec Ideal A3 .f32) (b : Fin 4) (s : Fin 2048) :
    (fun d => pass3 x (ix3 b s d)) = bfly 8 (fun d => x (ix3 b s d)) :=
  funext fun d => refStage_apply 256 8 (by norm_num) _ _ _ _ _ _ _ x b s d

/-- Pass 4 of the reference: half-width 16, 128 groups in a row. -/
def pass4 (x : FVec Ideal A3 .f32) : FVec Ideal A3 .f32 :=
  refStage 128 16 shapeCasts_S4x2048x4096_S4x2048x128x2x16 slices_S4x2048x128x2x16_S4x2048x128x1x16_0_0_0_0_0
    slices_S4x2048x128x2x16_S4x2048x128x1x16_0_0_0_1_0 shapeCasts_S4x2048x128x1x16_S4x2048x128x16
    bcast_S4x2048x128x16_S4x2048x128x1x16_0_1_2_4 concatenates_S4x2048x128x1x16_S4x2048x128x1x16_S4x2048x128x2x16_d3
    shapeCasts_S4x2048x128x2x16_S4x2048x4096 x

/-- On every row it is the butterfly pass of half-width 16. -/
theorem pass4_rows (x : FVec Ideal A3 .f32) (b : Fin 4) (s : Fin 2048) :
    (fun d => pass4 x (ix3 b s d)) = bfly 16 (fun d => x (ix3 b s d)) :=
  funext fun d => refStage_apply 128 16 (by norm_num) _ _ _ _ _ _ _ x b s d

/-- Pass 5 of the reference: half-width 32, 64 groups in a row. -/
def pass5 (x : FVec Ideal A3 .f32) : FVec Ideal A3 .f32 :=
  refStage 64 32 shapeCasts_S4x2048x4096_S4x2048x64x2x32 slices_S4x2048x64x2x32_S4x2048x64x1x32_0_0_0_0_0
    slices_S4x2048x64x2x32_S4x2048x64x1x32_0_0_0_1_0 shapeCasts_S4x2048x64x1x32_S4x2048x64x32
    bcast_S4x2048x64x32_S4x2048x64x1x32_0_1_2_4 concatenates_S4x2048x64x1x32_S4x2048x64x1x32_S4x2048x64x2x32_d3
    shapeCasts_S4x2048x64x2x32_S4x2048x4096 x

/-- On every row it is the butterfly pass of half-width 32. -/
theorem pass5_rows (x : FVec Ideal A3 .f32) (b : Fin 4) (s : Fin 2048) :
    (fun d => pass5 x (ix3 b s d)) = bfly 32 (fun d => x (ix3 b s d)) :=
  funext fun d => refStage_apply 64 32 (by norm_num) _ _ _ _ _ _ _ x b s d

/-- Pass 6 of the reference: half-width 64, 32 groups in a row. -/
def pass6 (x : FVec Ideal A3 .f32) : FVec Ideal A3 .f32 :=
  refStage 32 64 shapeCasts_S4x2048x4096_S4x2048x32x2x64 slices_S4x2048x32x2x64_S4x2048x32x1x64_0_0_0_0_0
    slices_S4x2048x32x2x64_S4x2048x32x1x64_0_0_0_1_0 shapeCasts_S4x2048x32x1x64_S4x2048x32x64
    bcast_S4x2048x32x64_S4x2048x32x1x64_0_1_2_4 concatenates_S4x2048x32x1x64_S4x2048x32x1x64_S4x2048x32x2x64_d3
    shapeCasts_S4x2048x32x2x64_S4x2048x4096 x

/-- On every row it is the butterfly pass of half-width 64. -/
theorem pass6_rows (x : FVec Ideal A3 .f32) (b : Fin 4) (s : Fin 2048) :
    (fun d => pass6 x (ix3 b s d)) = bfly 64 (fun d => x (ix3 b s d)) :=
  funext fun d => refStage_apply 32 64 (by norm_num) _ _ _ _ _ _ _ x b s d

/-- Pass 7 of the reference: half-width 128, 16 groups in a row. -/
def pass7 (x : FVec Ideal A3 .f32) : FVec Ideal A3 .f32 :=
  refStage 16 128 shapeCasts_S4x2048x4096_S4x2048x16x2x128 slices_S4x2048x16x2x128_S4x2048x16x1x128_0_0_0_0_0
    slices_S4x2048x16x2x128_S4x2048x16x1x128_0_0_0_1_0 shapeCasts_S4x2048x16x1x128_S4x2048x16x128
    bcast_S4x2048x16x128_S4x2048x16x1x128_0_1_2_4 concatenates_S4x2048x16x1x128_S4x2048x16x1x128_S4x2048x16x2x128_d3
    shapeCasts_S4x2048x16x2x128_S4x2048x4096 x

/-- On every row it is the butterfly pass of half-width 128. -/
theorem pass7_rows (x : FVec Ideal A3 .f32) (b : Fin 4) (s : Fin 2048) :
    (fun d => pass7 x (ix3 b s d)) = bfly 128 (fun d => x (ix3 b s d)) :=
  funext fun d => refStage_apply 16 128 (by norm_num) _ _ _ _ _ _ _ x b s d

/-- Pass 8 of the reference: half-width 256, 8 groups in a row. -/
def pass8 (x : FVec Ideal A3 .f32) : FVec Ideal A3 .f32 :=
  refStage 8 256 shapeCasts_S4x2048x4096_S4x2048x8x2x256 slices_S4x2048x8x2x256_S4x2048x8x1x256_0_0_0_0_0
    slices_S4x2048x8x2x256_S4x2048x8x1x256_0_0_0_1_0 shapeCasts_S4x2048x8x1x256_S4x2048x8x256
    bcast_S4x2048x8x256_S4x2048x8x1x256_0_1_2_4 concatenates_S4x2048x8x1x256_S4x2048x8x1x256_S4x2048x8x2x256_d3
    shapeCasts_S4x2048x8x2x256_S4x2048x4096 x

/-- On every row it is the butterfly pass of half-width 256. -/
theorem pass8_rows (x : FVec Ideal A3 .f32) (b : Fin 4) (s : Fin 2048) :
    (fun d => pass8 x (ix3 b s d)) = bfly 256 (fun d => x (ix3 b s d)) :=
  funext fun d => refStage_apply 8 256 (by norm_num) _ _ _ _ _ _ _ x b s d

/-- Pass 9 of the reference: half-width 512, 4 groups in a row. -/
def pass9 (x : FVec Ideal A3 .f32) : FVec Ideal A3 .f32 :=
  refStage 4 512 shapeCasts_S4x2048x4096_S4x2048x4x2x512 slices_S4x2048x4x2x512_S4x2048x4x1x512_0_0_0_0_0
    slices_S4x2048x4x2x512_S4x2048x4x1x512_0_0_0_1_0 shapeCasts_S4x2048x4x1x512_S4x2048x4x512
    bcast_S4x2048x4x512_S4x2048x4x1x512_0_1_2_4 concatenates_S4x2048x4x1x512_S4x2048x4x1x512_S4x2048x4x2x512_d3
    shapeCasts_S4x2048x4x2x512_S4x2048x4096 x

/-- On every row it is the butterfly pass of half-width 512. -/
theorem pass9_rows (x : FVec Ideal A3 .f32) (b : Fin 4) (s : Fin 2048) :
    (fun d => pass9 x (ix3 b s d)) = bfly 512 (fun d => x (ix3 b s d)) :=
  funext fun d => refStage_apply 4 512 (by norm_num) _ _ _ _ _ _ _ x b s d

/-- Pass 10 of the reference: half-width 1024, 2 groups in a row. -/
def pass10 (x : FVec Ideal A3 .f32) : FVec Ideal A3 .f32 :=
  refStage 2 1024 shapeCasts_S4x2048x4096_S4x2048x2x2x1024 slices_S4x2048x2x2x1024_S4x2048x2x1x1024_0_0_0_0_0
    slices_S4x2048x2x2x1024_S4x2048x2x1x1024_0_0_0_1_0 shapeCasts_S4x2048x2x1x1024_S4x2048x2x1024
    bcast_S4x2048x2x1024_S4x2048x2x1x1024_0_1_2_4 concatenates_S4x2048x2x1x1024_S4x2048x2x1x1024_S4x2048x2x2x1024_d3
    shapeCasts_S4x2048x2x2x1024_S4x2048x4096 x

/-- On every row it is the butterfly pass of half-width 1024. -/
theorem pass10_rows (x : FVec Ideal A3 .f32) (b : Fin 4) (s : Fin 2048) :
    (fun d => pass10 x (ix3 b s d)) = bfly 1024 (fun d => x (ix3 b s d)) :=
  funext fun d => refStage_apply 2 1024 (by norm_num) _ _ _ _ _ _ _ x b s d

/-- Pass 11 of the reference: half-width 2048, 1 group in a row. -/
def pass11 (x : FVec Ideal A3 .f32) : FVec Ideal A3 .f32 :=
  refStage 1 2048 shapeCasts_S4x2048x4096_S4x2048x1x2x2048 slices_S4x2048x1x2x2048_S4x2048x1x1x2048_0_0_0_0_0
    slices_S4x2048x1x2x2048_S4x2048x1x1x2048_0_0_0_1_0 shapeCasts_S4x2048x1x1x2048_S4x2048x1x2048
    bcast_S4x2048x1x2048_S4x2048x1x1x2048_0_1_2_4 concatenates_S4x2048x1x1x2048_S4x2048x1x1x2048_S4x2048x1x2x2048_d3
    shapeCasts_S4x2048x1x2x2048_S4x2048x4096 x

/-- On every row it is the butterfly pass of half-width 2048. -/
theorem pass11_rows (x : FVec Ideal A3 .f32) (b : Fin 4) (s : Fin 2048) :
    (fun d => pass11 x (ix3 b s d)) = bfly 2048 (fun d => x (ix3 b s d)) :=
  funext fun d => refStage_apply 1 2048 (by norm_num) _ _ _ _ _ _ _ x b s d

/-- The twelve passes, half-widths 1, 2, 4, …, 2048 in this order. -/
def chain (x : FVec Ideal A3 .f32) : FVec Ideal A3 .f32 :=
  pass11 (pass10 (pass9 (pass8 (pass7 (pass6 (pass5 (pass4 (pass3 (pass2 (pass1 (pass0 (x))))))))))))

/-- On every row the twelve passes are the transform. -/
theorem chain_rows (x : FVec Ideal A3 .f32) (b : Fin 4) (s : Fin 2048) :
    (fun d => chain x (ix3 b s d)) = transform (fun d => x (ix3 b s d)) :=
  (pass11_rows _ b s).trans (congrArg (bfly 2048) ((pass10_rows _ b s).trans (congrArg (bfly 1024) ((pass9_rows _ b s).trans (congrArg (bfly 512) ((pass8_rows _ b s).trans (congrArg (bfly 256) ((pass7_rows _ b s).trans (congrArg (bfly 128) ((pass6_rows _ b s).trans (congrArg (bfly 64) ((pass5_rows _ b s).trans (congrArg (bfly 32) ((pass4_rows _ b s).trans (congrArg (bfly 16) ((pass3_rows _ b s).trans (congrArg (bfly 8) ((pass2_rows _ b s).trans (congrArg (bfly 4) ((pass1_rows _ b s).trans (congrArg (bfly 2) (pass0_rows x b s))))))))))))))))))))))

/-- The same at one entry. -/
theorem chain_apply (x : FVec Ideal A3 .f32) (b : Fin 4) (s : Fin 2048) (d : Fin 4096) :
    chain x (ix3 b s d) = transform (fun d' => x (ix3 b s d')) d :=
  congrFun (chain_rows x b s) d

end Cert.ReferenceIdeal.RefChain

end
-- ==== Proof.RefPass0.lean ====
/-
  Passes 0 and 1 of the reference (half-widths 1 and 2), from any contents of the buffers:
  the eleven operations of a pass leave in the pass's last buffer the butterfly pass of the array they
  read, and leave the scalar and the three arguments as they were.
-/
import proofs.«179667_j39986145526404_1_alg».proof.Proof.RefOps
import proofs.«179667_j39986145526404_1_alg».proof.Proof.RefChain

noncomputable section

namespace Cert.ReferenceIdeal.RefPass

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefChain Cert.Fwht

/-- Pass 0 of the run is `pass0` of the array it reads. -/
theorem pass0_out (W : Valuation τ sig (Elt Ideal)) :
    after (opsPass0 (F := Ideal)) W (Proc.devRef .tc main_v12) = pass0 (W (Proc.devRef .tc main_arg0)) := by
  unfold opsPass0; after_results; rfl
theorem pass0_keep_main_v1 (W : Valuation τ sig (Elt Ideal)) :
    after (opsPass0 (F := Ideal)) W (Proc.devRef .tc main_v1) = W (Proc.devRef .tc main_v1) := by
  unfold opsPass0; after_results
theorem pass0_keep_main_arg0 (W : Valuation τ sig (Elt Ideal)) :
    after (opsPass0 (F := Ideal)) W (Proc.devRef .tc main_arg0) = W (Proc.devRef .tc main_arg0) := by
  unfold opsPass0; after_results
theorem pass0_keep_main_arg1 (W : Valuation τ sig (Elt Ideal)) :
    after (opsPass0 (F := Ideal)) W (Proc.devRef .tc main_arg1) = W (Proc.devRef .tc main_arg1) := by
  unfold opsPass0; after_results
theorem pass0_keep_main_arg2 (W : Valuation τ sig (Elt Ideal)) :
    after (opsPass0 (F := Ideal)) W (Proc.devRef .tc main_arg2) = W (Proc.devRef .tc main_arg2) := by
  unfold opsPass0; after_results

/-- Pass 1 of the run is `pass1` of the array it reads. -/
theorem pass1_out (W : Valuation τ sig (Elt Ideal)) :
    after (opsPass1 (F := Ideal)) W (Proc.devRef .tc main_v23) = pass1 (W (Proc.devRef .tc main_v12)) := by
  unfold opsPass1; after_results; rfl
theorem pass1_keep_main_v1 (W : Valuation τ sig (Elt Ideal)) :
    after (opsPass1 (F := Ideal)) W (Proc.devRef .tc main_v1) = W (Proc.devRef .tc main_v1) := by
  unfold opsPass1; after_results
theorem pass1_keep_main_arg0 (W : Valuation τ sig (Elt Ideal)) :
    after (opsPass1 (F := Ideal)) W (Proc.devRef .tc main_arg0) = W (Proc.devRef .tc main_arg0) := by
  unfold opsPass1; after_results
theorem pass1_keep_main_arg1 (W : Valuation τ sig (Elt Ideal)) :
    after (opsPass1 (F := Ideal)) W (Proc.devRef .tc main_arg1) = W (Proc.devRef .tc main_arg1) := by
  unfold opsPass1; after_results
theorem pass1_keep_main_arg2 (W : Valuation τ sig (Elt Ideal)) :
    after (opsPass1 (F := Ideal)) W (Proc.devRef .tc main_arg2) = W (Proc.devRef .tc main_arg2) := by
  unfold opsPass1; after_results

end Cert.ReferenceIdeal.RefPass

end
-- ==== Proof.RefPass1.lean ====
/-
  Passes 2 and 3 of the reference (half-widths 4 and 8), from any contents of the buffers:
  the eleven operations of a pass leave in the pass's last buffer the butterfly pass of the array they
  read, and leave the scalar and the three arguments as they were.
-/
import proofs.«179667_j39986145526404_1_alg».proof.Proof.RefOps
import proofs.«179667_j39986145526404_1_alg».proof.Proof.RefChain

noncomputable section

namespace Cert.ReferenceIdeal.RefPass

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefChain Cert.Fwht

/-- Pass 2 of the run is `pass2` of the array it reads. -/
theorem pass2_out (W : Valuation τ sig (Elt Ideal)) :
    after (opsPass2 (F := Ideal)) W (Proc.devRef .tc main_v34) = pass2 (W (Proc.devRef .tc main_v23)) := by
  unfold opsPass2; after_results; rfl
theorem pass2_keep_main_v1 (W : Valuation τ sig (Elt Ideal)) :
    after (opsPass2 (F := Ideal)) W (Proc.devRef .tc main_v1) = W (Proc.devRef .tc main_v1) := by
  unfold opsPass2; after_results
theorem pass2_keep_main_arg0 (W : Valuation τ sig (Elt Ideal)) :
    after (opsPass2 (F := Ideal)) W (Proc.devRef .tc main_arg0) = W (Proc.devRef .tc main_arg0) := by
  unfold opsPass2; after_results
theorem pass2_keep_main_arg1 (W : Valuation τ sig (Elt Ideal)) :
    after (opsPass2 (F := Ideal)) W (Proc.devRef .tc main_arg1) = W (Proc.devRef .tc main_arg1) := by
  unfold opsPass2; after_results
theorem pass2_keep_main_arg2 (W : Valuation τ sig (Elt Ideal)) :
    after (opsPass2 (F := Ideal)) W (Proc.devRef .tc main_arg2) = W (Proc.devRef .tc main_arg2) := by
  unfold opsPass2; after_results

/-- Pass 3 of the run is `pass3` of the array it reads. -/
theorem pass3_out (W : Valuation τ sig (Elt Ideal)) :
    after (opsPass3 (F := Ideal)) W (Proc.devRef .tc main_v45) = pass3 (W (Proc.devRef .tc main_v34)) := by
  unfold opsPass3; after_results; rfl
theorem pass3_keep_main_v1 (W : Valuation τ sig (Elt Ideal)) :
    after (opsPass3 (F := Ideal)) W (Proc.devRef .tc main_v1) = W (Proc.devRef .tc main_v1) := by
  unfold opsPass3; after_results
theorem pass3_keep_main_arg0 (W : Valuation τ sig (Elt Ideal)) :
    after (opsPass3 (F := Ideal)) W (Proc.devRef .tc main_arg0) = W (Proc.devRef .tc main_arg0) := by
  unfold opsPass3; after_results
theorem pass3_keep_main_arg1 (W : Valuation τ sig (Elt Ideal)) :
    after (opsPass3 (F := Ideal)) W (Proc.devRef .tc main_arg1) = W (Proc.devRef .tc main_arg1) := by
  unfold opsPass3; after_results
theorem pass3_keep_main_arg2 (W : Valuation τ sig (Elt Ideal)) :
    after (opsPass3 (F := Ideal)) W (Proc.devRef .tc main_arg2) = W (Proc.devRef .tc main_arg2) := by
  unfold opsPass3; after_results

end Cert.ReferenceIdeal.RefPass

end
-- ==== Proof.RefPass2.lean ====
/-
  Passes 4 and 5 of the reference (half-widths 16 and 32), from any contents of the buffers:
  the eleven operations of a pass leave in the pass's last buffer the butterfly pass of the array they
  read, and leave the scalar and the three arguments as they were.
-/
import proofs.«179667_j39986145526404_1_alg».proof.Proof.RefOps
import proofs.«179667_j39986145526404_1_alg».proof.Proof.RefChain

noncomputable section

namespace Cert.ReferenceIdeal.RefPass

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefChain Cert.Fwht

/-- Pass 4 of the run is `pass4` of the array it reads. -/
theorem pass4_out (W : Valuation τ sig (Elt Ideal)) :
    after (opsPass4 (F := Ideal)) W (Proc.devRef .tc main_v56) = pass4 (W (Proc.devRef .tc main_v45)) := by
  unfold opsPass4; after_results; rfl
theorem pass4_keep_main_v1 (W : Valuation τ sig (Elt Ideal)) :
    after (opsPass4 (F := Ideal)) W (Proc.devRef .tc main_v1) = W (Proc.devRef .tc main_v1) := by
  unfold opsPass4; after_results
theorem pass4_keep_main_arg0 (W : Valuation τ sig (Elt Ideal)) :
    after (opsPass4 (F := Ideal)) W (Proc.devRef .tc main_arg0) = W (Proc.devRef .tc main_arg0) := by
  unfold opsPass4; after_results
theorem pass4_keep_main_arg1 (W : Valuation τ sig (Elt Ideal)) :
    after (opsPass4 (F := Ideal)) W (Proc.devRef .tc main_arg1) = W (Proc.devRef .tc main_arg1) := by
  unfold opsPass4; after_results
theorem pass4_keep_main_arg2 (W : Valuation τ sig (Elt Ideal)) :
    after (opsPass4 (F := Ideal)) W (Proc.devRef .tc main_arg2) = W (Proc.devRef .tc main_arg2) := by
  unfold opsPass4; after_results

/-- Pass 5 of the run is `pass5` of the array it reads. -/
theorem pass5_out (W : Valuation τ sig (Elt Ideal)) :
    after (opsPass5 (F := Ideal)) W (Proc.devRef .tc main_v67) = pass5 (W (Proc.devRef .tc main_v56)) := by
  unfold opsPass5; after_results; rfl
theorem pass5_keep_main_v1 (W : Valuation τ sig (Elt Ideal)) :
    after (opsPass5 (F := Ideal)) W (Proc.devRef .tc main_v1) = W (Proc.devRef .tc main_v1) := by
  unfold opsPass5; after_results
theorem pass5_keep_main_arg0 (W : Valuation τ sig (Elt Ideal)) :
    after (opsPass5 (F := Ideal)) W (Proc.devRef .tc main_arg0) = W (Proc.devRef .tc main_arg0) := by
  unfold opsPass5; after_results
theorem pass5_keep_main_arg1 (W : Valuation τ sig (Elt Ideal)) :
    after (opsPass5 (F := Ideal)) W (Proc.devRef .tc main_arg1) = W (Proc.devRef .tc main_arg1) := by
  unfold opsPass5; after_results
theorem pass5_keep_main_arg2 (W : Valuation τ sig (Elt Ideal)) :
    after (opsPass5 (F := Ideal)) W (Proc.devRef .tc main_arg2) = W (Proc.devRef .tc main_arg2) := by
  unfold opsPass5; after_results

end Cert.ReferenceIdeal.RefPass

end
-- ==== Proof.RefPass3.lean ====
/-
  Passes 6 and 7 of the reference (half-widths 64 and 128), from any contents of the buffers:
  the eleven operations of a pass leave in the pass's last buffer the butterfly pass of the array they
  read, and leave the scalar and the three arguments as they were.
-/
import proofs.«179667_j39986145526404_1_alg».proof.Proof.RefOps
import proofs.«179667_j39986145526404_1_alg».proof.Proof.RefChain

noncomputable section

namespace Cert.ReferenceIdeal.RefPass

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefChain Cert.Fwht

/-- Pass 6 of the run is `pass6` of the array it reads. -/
theorem pass6_out (W : Valuation τ sig (Elt Ideal)) :
    after (opsPass6 (F := Ideal)) W (Proc.devRef .tc main_v78) = pass6 (W (Proc.devRef .tc main_v67)) := by
  unfold opsPass6; after_results; rfl
theorem pass6_keep_main_v1 (W : Valuation τ sig (Elt Ideal)) :
    after (opsPass6 (F := Ideal)) W (Proc.devRef .tc main_v1) = W (Proc.devRef .tc main_v1) := by
  unfold opsPass6; after_results
theorem pass6_keep_main_arg0 (W : Valuation τ sig (Elt Ideal)) :
    after (opsPass6 (F := Ideal)) W (Proc.devRef .tc main_arg0) = W (Proc.devRef .tc main_arg0) := by
  unfold opsPass6; after_results
theorem pass6_keep_main_arg1 (W : Valuation τ sig (Elt Ideal)) :
    after (opsPass6 (F := Ideal)) W (Proc.devRef .tc main_arg1) = W (Proc.devRef .tc main_arg1) := by
  unfold opsPass6; after_results
theorem pass6_keep_main_arg2 (W : Valuation τ sig (Elt Ideal)) :
    after (opsPass6 (F := Ideal)) W (Proc.devRef .tc main_arg2) = W (Proc.devRef .tc main_arg2) := by
  unfold opsPass6; after_results

/-- Pass 7 of the run is `pass7` of the array it reads. -/
theorem pass7_out (W : Valuation τ sig (Elt Ideal)) :
    after (opsPass7 (F := Ideal)) W (Proc.devRef .tc main_v89) = pass7 (W (Proc.devRef .tc main_v78)) := by
  unfold opsPass7; after_results; rfl
theorem pass7_keep_main_v1 (W : Valuation τ sig (Elt Ideal)) :
    after (opsPass7 (F := Ideal)) W (Proc.devRef .tc main_v1) = W (Proc.devRef .tc main_v1) := by
  unfold opsPass7; after_results
theorem pass7_keep_main_arg0 (W : Valuation τ sig (Elt Ideal)) :
    after (opsPass7 (F := Ideal)) W (Proc.devRef .tc main_arg0) = W (Proc.devRef .tc main_arg0) := by
  unfold opsPass7; after_results
theorem pass7_keep_main_arg1 (W : Valuation τ sig (Elt Ideal)) :
    after (opsPass7 (F := Ideal)) W (Proc.devRef .tc main_arg1) = W (Proc.devRef .tc main_arg1) := by
  unfold opsPass7; after_results
theorem pass7_keep_main_arg2 (W : Valuation τ sig (Elt Ideal)) :
    after (opsPass7 (F := Ideal)) W (Proc.devRef .tc main_arg2) = W (Proc.devRef .tc main_arg2) := by
  unfold opsPass7; after_results

end Cert.ReferenceIdeal.RefPass

end
-- ==== Proof.RefPass4.lean ====
/-
  Passes 8 and 9 of the reference (half-widths 256 and 512), from any contents of the buffers:
  the eleven operations of a pass leave in the pass's last buffer the butterfly pass of the array they
  read, and leave the scalar and the three arguments as they were.
-/
import proofs.«179667_j39986145526404_1_alg».proof.Proof.RefOps
import proofs.«179667_j39986145526404_1_alg».proof.Proof.RefChain

noncomputable section

namespace Cert.ReferenceIdeal.RefPass

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefChain Cert.Fwht

/-- Pass 8 of the run is `pass8` of the array it reads. -/
theorem pass8_out (W : Valuation τ sig (Elt Ideal)) :
    after (opsPass8 (F := Ideal)) W (Proc.devRef .tc main_v100) = pass8 (W (Proc.devRef .tc main_v89)) := by
  unfold opsPass8; after_results; rfl
theorem pass8_keep_main_v1 (W : Valuation τ sig (Elt Ideal)) :
    after (opsPass8 (F := Ideal)) W (Proc.devRef .tc main_v1) = W (Proc.devRef .tc main_v1) := by
  unfold opsPass8; after_results
theorem pass8_keep_main_arg0 (W : Valuation τ sig (Elt Ideal)) :
    after (opsPass8 (F := Ideal)) W (Proc.devRef .tc main_arg0) = W (Proc.devRef .tc main_arg0) := by
  unfold opsPass8; after_results
theorem pass8_keep_main_arg1 (W : Valuation τ sig (Elt Ideal)) :
    after (opsPass8 (F := Ideal)) W (Proc.devRef .tc main_arg1) = W (Proc.devRef .tc main_arg1) := by
  unfold opsPass8; after_results
theorem pass8_keep_main_arg2 (W : Valuation τ sig (Elt Ideal)) :
    after (opsPass8 (F := Ideal)) W (Proc.devRef .tc main_arg2) = W (Proc.devRef .tc main_arg2) := by
  unfold opsPass8; after_results

/-- Pass 9 of the run is `pass9` of the array it reads. -/
theorem pass9_out (W : Valuation τ sig (Elt Ideal)) :
    after (opsPass9 (F := Ideal)) W (Proc.devRef .tc main_v111) = pass9 (W (Proc.devRef .tc main_v100)) := by
  unfold opsPass9; after_results; rfl
theorem pass9_keep_main_v1 (W : Valuation τ sig (Elt Ideal)) :
    after (opsPass9 (F := Ideal)) W (Proc.devRef .tc main_v1) = W (Proc.devRef .tc main_v1) := by
  unfold opsPass9; after_results
theorem pass9_keep_main_arg0 (W : Valuation τ sig (Elt Ideal)) :
    after (opsPass9 (F := Ideal)) W (Proc.devRef .tc main_arg0) = W (Proc.devRef .tc main_arg0) := by
  unfold opsPass9; after_results
theorem pass9_keep_main_arg1 (W : Valuation τ sig (Elt Ideal)) :
    after (opsPass9 (F := Ideal)) W (Proc.devRef .tc main_arg1) = W (Proc.devRef .tc main_arg1) := by
  unfold opsPass9; after_results
theorem pass9_keep_main_arg2 (W : Valuation τ sig (Elt Ideal)) :
    after (opsPass9 (F := Ideal)) W (Proc.devRef .tc main_arg2) = W (Proc.devRef .tc main_arg2) := by
  unfold opsPass9; after_results

end Cert.ReferenceIdeal.RefPass

end
-- ==== Proof.RefPass5.lean ====
/-
  Passes 10 and 11 of the reference (half-widths 1024 and 2048), from any contents of the buffers:
  the eleven operations of a pass leave in the pass's last buffer the butterfly pass of the array they
  read, and leave the scalar and the three arguments as they were.
-/
import proofs.«179667_j39986145526404_1_alg».proof.Proof.RefOps
import proofs.«179667_j39986145526404_1_alg».proof.Proof.RefChain

noncomputable section

namespace Cert.ReferenceIdeal.RefPass

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefChain Cert.Fwht

/-- Pass 10 of the run is `pass10` of the array it reads. -/
theorem pass10_out (W : Valuation τ sig (Elt Ideal)) :
    after (opsPass10 (F := Ideal)) W (Proc.devRef .tc main_v122) = pass10 (W (Proc.devRef .tc main_v111)) := by
  unfold opsPass10; after_results; rfl
theorem pass10_keep_main_v1 (W : Valuation τ sig (Elt Ideal)) :
    after (opsPass10 (F := Ideal)) W (Proc.devRef .tc main_v1) = W (Proc.devRef .tc main_v1) := by
  unfold opsPass10; after_results
theorem pass10_keep_main_arg0 (W : Valuation τ sig (Elt Ideal)) :
    after (opsPass10 (F := Ideal)) W (Proc.devRef .tc main_arg0) = W (Proc.devRef .tc main_arg0) := by
  unfold opsPass10; after_results
theorem pass10_keep_main_arg1 (W : Valuation τ sig (Elt Ideal)) :
    after (opsPass10 (F := Ideal)) W (Proc.devRef .tc main_arg1) = W (Proc.devRef .tc main_arg1) := by
  unfold opsPass10; after_results
theorem pass10_keep_main_arg2 (W : Valuation τ sig (Elt Ideal)) :
    after (opsPass10 (F := Ideal)) W (Proc.devRef .tc main_arg2) = W (Proc.devRef .tc main_arg2) := by
  unfold opsPass10; after_results

/-- Pass 11 of the run is `pass11` of the array it reads. -/
theorem pass11_out (W : Valuation τ sig (Elt Ideal)) :
    after (opsPass11 (F := Ideal)) W (Proc.devRef .tc main_v133) = pass11 (W (Proc.devRef .tc main_v122)) := by
  unfold opsPass11; after_results; rfl
theorem pass11_keep_main_v1 (W : Valuation τ sig (Elt Ideal)) :
    after (opsPass11 (F := Ideal)) W (Proc.devRef .tc main_v1) = W (Proc.devRef .tc main_v1) := by
  unfold opsPass11; after_results
theorem pass11_keep_main_arg0 (W : Valuation τ sig (Elt Ideal)) :
    after (opsPass11 (F := Ideal)) W (Proc.devRef .tc main_arg0) = W (Proc.devRef .tc main_arg0) := by
  unfold opsPass11; after_results
theorem pass11_keep_main_arg1 (W : Valuation τ sig (Elt Ideal)) :
    after (opsPass11 (F := Ideal)) W (Proc.devRef .tc main_arg1) = W (Proc.devRef .tc main_arg1) := by
  unfold opsPass11; after_results
theorem pass11_keep_main_arg2 (W : Valuation τ sig (Elt Ideal)) :
    after (opsPass11 (F := Ideal)) W (Proc.devRef .tc main_arg2) = W (Proc.devRef .tc main_arg2) := by
  unfold opsPass11; after_results

end Cert.ReferenceIdeal.RefPass

end
-- ==== Proof.RefPasses.lean ====
/-
  The twelve passes of the reference run one after the other, from any contents of the buffers: the last
  buffer holds the argument array after the twelve butterfly passes, half-widths 1, 2, 4, …, 2048 in
  this order, and the scalar and the three arguments are as they were.
-/
import proofs.«179667_j39986145526404_1_alg».proof.Proof.RefPass0
import proofs.«179667_j39986145526404_1_alg».proof.Proof.RefPass1
import proofs.«179667_j39986145526404_1_alg».proof.Proof.RefPass2
import proofs.«179667_j39986145526404_1_alg».proof.Proof.RefPass3
import proofs.«179667_j39986145526404_1_alg».proof.Proof.RefPass4
import proofs.«179667_j39986145526404_1_alg».proof.Proof.RefPass5

noncomputable section

namespace Cert.ReferenceIdeal.RefPasses

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefChain Cert.Fwht
open Cert.ReferenceIdeal.RefPass

variable {F : FTy → Type} [FloatOps F]

/-- The twelve passes' operations, in order. -/
def opsPasses : List (HloOp τ sig (Elt F)) :=
  opsPass0 ++ opsPass1 ++ opsPass2 ++ opsPass3 ++ opsPass4 ++ opsPass5 ++ opsPass6 ++ opsPass7 ++ opsPass8 ++ opsPass9 ++ opsPass10 ++ opsPass11

/-- After them the last pass's buffer holds the twelve passes of the array the first one reads. -/
theorem passes_out (W : Valuation τ sig (Elt Ideal)) :
    after (opsPasses (F := Ideal)) W (Proc.devRef .tc main_v133) = chain (W (Proc.devRef .tc main_arg0)) := by
  unfold opsPasses
  simp only [after_append]
  rw [pass11_out, pass10_out, pass9_out, pass8_out, pass7_out, pass6_out, pass5_out, pass4_out, pass3_out, pass2_out, pass1_out, pass0_out]
  rfl
theorem passes_keep_main_v1 (W : Valuation τ sig (Elt Ideal)) :
    after (opsPasses (F := Ideal)) W (Proc.devRef .tc main_v1) = W (Proc.devRef .tc main_v1) := by
  unfold opsPasses
  simp only [after_append]
  rw [pass11_keep_main_v1, pass10_keep_main_v1, pass9_keep_main_v1, pass8_keep_main_v1, pass7_keep_main_v1, pass6_keep_main_v1, pass5_keep_main_v1, pass4_keep_main_v1, pass3_keep_main_v1, pass2_keep_main_v1, pass1_keep_main_v1, pass0_keep_main_v1]
theorem passes_keep_main_arg0 (W : Valuation τ sig (Elt Ideal)) :
    after (opsPasses (F := Ideal)) W (Proc.devRef .tc main_arg0) = W (Proc.devRef .tc main_arg0) := by
  unfold opsPasses
  simp only [after_append]
  rw [pass11_keep_main_arg0, pass10_keep_main_arg0, pass9_keep_main_arg0, pass8_keep_main_arg0, pass7_keep_main_arg0, pass6_keep_main_arg0, pass5_keep_main_arg0, pass4_keep_main_arg0, pass3_keep_main_arg0, pass2_keep_main_arg0, pass1_keep_main_arg0, pass0_keep_main_arg0]
theorem passes_keep_main_arg1 (W : Valuation τ sig (Elt Ideal)) :
    after (opsPasses (F := Ideal)) W (Proc.devRef .tc main_arg1) = W (Proc.devRef .tc main_arg1) := by
  unfold opsPasses
  simp only [after_append]
  rw [pass11_keep_main_arg1, pass10_keep_main_arg1, pass9_keep_main_arg1, pass8_keep_main_arg1, pass7_keep_main_arg1, pass6_keep_main_arg1, pass5_keep_main_arg1, pass4_keep_main_arg1, pass3_keep_main_arg1, pass2_keep_main_arg1, pass1_keep_main_arg1, pass0_keep_main_arg1]
theorem passes_keep_main_arg2 (W : Valuation τ sig (Elt Ideal)) :
    after (opsPasses (F := Ideal)) W (Proc.devRef .tc main_arg2) = W (Proc.devRef .tc main_arg2) := by
  unfold opsPasses
  simp only [after_append]
  rw [pass11_keep_main_arg2, pass10_keep_main_arg2, pass9_keep_main_arg2, pass8_keep_main_arg2, pass7_keep_main_arg2, pass6_keep_main_arg2, pass5_keep_main_arg2, pass4_keep_main_arg2, pass3_keep_main_arg2, pass2_keep_main_arg2, pass1_keep_main_arg2, pass0_keep_main_arg2]

end Cert.ReferenceIdeal.RefPasses

end
-- ==== Proof.RefSplit.lean ====
/-
  The reference's list of operations is its first four, then the twelve passes, then its last six.
-/
import proofs.«179667_j39986145526404_1_alg».proof.Proof.RefRun
import proofs.«179667_j39986145526404_1_alg».proof.Proof.RefPasses

noncomputable section

namespace Cert.ReferenceIdeal.RefSplit

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefPasses

variable {F : FTy → Type} [FloatOps F]

set_option maxRecDepth 8192 in
theorem ops_split : (ValueP.ops (F := F)) = opsHead ++ opsPasses ++ opsTail := rfl

end Cert.ReferenceIdeal.RefSplit

end
-- ==== Proof.RefEnds.lean ====
/-
  The two ends of the reference, from any contents of the buffers: its first four operations leave the
  scalar 1 / sqrt 4096 (as the reference spells it) and touch no argument; its last six scale the
  transformed array by the broadcast scalar, contract it with the weight and add the broadcast bias.
-/
import proofs.«179667_j39986145526404_1_alg».proof.Proof.RefOps
import Idealize.ShloMosaic.PureOps.Ideal

noncomputable section

namespace Cert.ReferenceIdeal.RefEnds

open Cert.ReferenceIdeal Cert.ReferenceIdeal.Gen Idealize.ShloMosaic Idealize.ShloMosaic.TcCoe Idealize.SL.Sem Idealize.ShloMosaic.StableHlo
open Cert.ReferenceIdeal.RefOps

/-- The scalar the first four operations leave. -/
theorem head_out (W : Valuation τ sig (Elt Ideal)) :
    after (opsHead (F := Ideal)) W (Proc.devRef .tc main_v1)
      = Host.divf (constant (F := Ideal) S_ .f32 0x3F800000#32) (Host.sqrt (constant (F := Ideal) S_ .f32 0x45800000#32)) := by
  unfold opsHead; after_results
theorem head_keep_main_arg0 (W : Valuation τ sig (Elt Ideal)) :
    after (opsHead (F := Ideal)) W (Proc.devRef .tc main_arg0) = W (Proc.devRef .tc main_arg0) := by
  unfold opsHead; after_results
theorem head_keep_main_arg1 (W : Valuation τ sig (Elt Ideal)) :
    after (opsHead (F := Ideal)) W (Proc.devRef .tc main_arg1) = W (Proc.devRef .tc main_arg1) := by
  unfold opsHead; after_results
theorem head_keep_main_arg2 (W : Valuation τ sig (Elt Ideal)) :
    after (opsHead (F := Ideal)) W (Proc.devRef .tc main_arg2) = W (Proc.devRef .tc main_arg2) := by
  unfold opsHead; after_results

/-- The result the last six operations leave, of the transformed array, the scalar, the weight and the bias. -/
theorem tail_out (W : Valuation τ sig (Elt Ideal)) :
    Eq (α := FVec Ideal S4x2048x4096 .f32) (after (opsTail (F := Ideal)) W (Proc.devRef .tc main_v139))
      (addf (Host.dotGeneral (φ₁ := .f32) (φ₂ := .f32) dot_S4x2048x4096_S4096x4096_S4x2048x4096_2_1_01_0_n_n none
          (mulf (φ := .f32) (W (Proc.devRef .tc main_v133) : FVec Ideal S4x2048x4096 .f32)
            (broadcastInDim S4x2048x4096 ![] bcast_S_S4x2048x4096 (W (Proc.devRef .tc main_v1) : FVec Ideal S_ .f32)))
          (W (Proc.devRef .tc main_arg1) : FVec Ideal S4096x4096 .f32))
        (broadcastInDim S4x2048x4096 ![0, 1, 2] bcast_S1x1x4096_S4x2048x4096_0_1_2
          (broadcastInDim S1x1x4096 ![2] bcast_S4096_S1x1x4096_2 (W (Proc.devRef .tc main_arg2) : FVec Ideal S4096 .f32)))) := by
  unfold opsTail; after_results <;> rfl
theorem tail_keep_main_arg0 (W : Valuation τ sig (Elt Ideal)) :
    after (opsTail (F := Ideal)) W (Proc.devRef .tc main_arg0) = W (Proc.devRef .tc main_arg0) := by
  unfold opsTail; after_results
theorem tail_keep_main_arg1 (W : Valuation τ sig (Elt Ideal)) :
    after (opsTail (F := Ideal)) W (Proc.devRef .tc main_arg1) = W (Proc.devRef .tc main_arg1) := by
  unfold opsTail; after_results
theorem tail_keep_main_arg2 (W : Valuation τ sig (Elt Ideal)) :
    after (opsTail (F := Ideal)) W (Proc.devRef .tc main_arg2) = W (Proc.devRef .tc main_arg2) := by
  unfold opsTail; after_results

end Cert.ReferenceIdeal.RefEnds

end
-- ==== Proof.RefDot.lean ====
/-
  The reference's last three operations read at one entry: the product of the transformed rows with the
  weight, contracted over the rows' axis and the weight's second axis, is the sum over that axis of the
  products of the entries.
-/
import proofs.«179667_j39986145526404_1_alg».proof.Proof.Gen.ReferenceIdeal
import Idealize.ShloMosaic.PureOps.Ideal.Laws
import Idealize.ShloMosaic.Lib.ValueIdx

noncomputable section

open scoped BigOperators

namespace Cert.ReferenceIdeal.RefDot

open Idealize.ShloMosaic Idealize.ShloMosaic.ValueIdx Cert.ReferenceIdeal Cert.ReferenceIdeal.Gen

/-- The activations' index the contraction reads at result entry `(b, s, o)`, position `d`: `(b, s, d)`. -/
theorem lhs_idx (b : Fin 4) (s : Fin 2048) (o d : Fin 4096) :
    dot_S4x2048x4096_S4096x4096_S4x2048x4096_2_1_01_0_n_n.lhsIdx (ix3 b s o)
      ((contrEquiv1 dot_S4x2048x4096_S4096x4096_S4x2048x4096_2_1_01_0_n_n 4096 rfl rfl).symm d) = ix3 b s d := by
  have c3 := contrEquiv1_symm_val dot_S4x2048x4096_S4096x4096_S4x2048x4096_2_1_01_0_n_n 4096 rfl rfl d
  funext ax; apply Fin.ext
  match ax with
  | ⟨0, _⟩ => simp [DotDims.lhsIdx, dot_S4x2048x4096_S4096x4096_S4x2048x4096_2_1_01_0_n_n]; rfl
  | ⟨1, _⟩ => simp [DotDims.lhsIdx, dot_S4x2048x4096_S4096x4096_S4x2048x4096_2_1_01_0_n_n]; rfl
  | ⟨2, _⟩ => simp [DotDims.lhsIdx, dot_S4x2048x4096_S4096x4096_S4x2048x4096_2_1_01_0_n_n]; exact c3

/-- The weight's index there: `(o, d)`. -/
theorem rhs_idx (b : Fin 4) (s : Fin 2048) (o d : Fin 4096) :
    dot_S4x2048x4096_S4096x4096_S4x2048x4096_2_1_01_0_n_n.rhsIdx (ix3 b s o)
      ((contrEquiv1 dot_S4x2048x4096_S4096x4096_S4x2048x4096_2_1_01_0_n_n 4096 rfl rfl).symm d) = ix2 o d := by
  have c3 := contrEquiv1_symm_val dot_S4x2048x4096_S4096x4096_S4x2048x4096_2_1_01_0_n_n 4096 rfl rfl d
  funext ax; apply Fin.ext
  match ax with
  | ⟨0, _⟩ => simp [DotDims.rhsIdx, dot_S4x2048x4096_S4096x4096_S4x2048x4096_2_1_01_0_n_n]; rfl
  | ⟨1, _⟩ => simp [DotDims.rhsIdx, dot_S4x2048x4096_S4096x4096_S4x2048x4096_2_1_01_0_n_n]; exact c3

/-- The product at entry `(b, s, o)`: the sum over `d` of activations `(b, s, d)` times weight `(o, d)`. -/
theorem dot_apply (A : FVec Ideal S4x2048x4096 .f32) (W : FVec Ideal S4096x4096 .f32)
    (b : Fin 4) (s : Fin 2048) (o : Fin 4096) :
    Host.dotGeneral dot_S4x2048x4096_S4096x4096_S4x2048x4096_2_1_01_0_n_n none A W (ix3 b s o)
      = ∑ d : Fin 4096, A (ix3 b s d) * W (ix2 o d) := by
  show FloatOps.dotGeneral _ none _ A W (ix3 b s o) = _
  rw [Ideal.dotGeneral_apply,
    ← Equiv.sum_comp (contrEquiv1 dot_S4x2048x4096_S4096x4096_S4x2048x4096_2_1_01_0_n_n 4096 rfl rfl).symm]
  refine Finset.sum_congr rfl fun d _ => ?_
  rw [lhs_idx, rhs_idx]

end Cert.ReferenceIdeal.RefDot

end
-- ==== Proof.RefConsts.lean ====
/-
  The float words the reference spells, as the extended reals they denote: 4096, 1 and 1/64; and the
  scale it computes from them, 1 / sqrt 4096, which is the extended real the word of 1/64 denotes.
-/
import Idealize.ShloMosaic.PureOps.Ideal
import proofs.«179667_j39986145526404_1_alg».proof.Proof.Spec

noncomputable section

namespace Cert.Fwht.Consts

open Idealize.ShloMosaic

/-- The float word of 4096.0 denotes the real 4096. -/
theorem ofBits_4096 : Ideal.ofBits .f32 0x45800000#32 = ((4096 : ℝ) : EReal) := by
  simp [Ideal.ofBits, Ideal.ieee, -EReal.coe_mul]; norm_num

/-- The float word of 1.0 denotes 1. -/
theorem ofBits_one : Ideal.ofBits .f32 0x3F800000#32 = 1 := by
  simp [Ideal.ofBits, Ideal.ieee, -EReal.coe_mul]; norm_num

/-- The float word of 0.015625 denotes the real 1/64. -/
theorem ofBits_inv64 : Ideal.ofBits .f32 0x3C800000#32 = ((1 / 64 : ℝ) : EReal) := by
  simp [Ideal.ofBits, Ideal.ieee, -EReal.coe_mul]; norm_num

/-- The square root of 4096 is 64. -/
theorem sqrt_4096 : Real.sqrt 4096 = 64 := by
  rw [show (4096 : ℝ) = 64 ^ 2 by norm_num]
  exact Real.sqrt_sq (by norm_num)

/-- One divided by the square root of 4096, on the extended reals, is the scale 1/64. -/
theorem div_sqrt_eq_scale :
    Ideal.div (Ideal.ofBits .f32 0x3F800000#32) (Ideal.sqrt (Ideal.ofBits .f32 0x45800000#32)) = Cert.Fwht.scale := by
  unfold Cert.Fwht.scale
  rw [ofBits_one, ofBits_4096, ofBits_inv64, Ideal.sqrt_coe, if_neg (by norm_num), sqrt_4096,
    Ideal.div_coe (by norm_num), one_mul]

/-- The same as the reference spells it, splat constants of any shape read at any index. -/
theorem scale_eq {s : Shape} (i : s.Idx) :
    Host.divf (constant (F := Ideal) s .f32 0x3F800000#32) (Host.sqrt (constant (F := Ideal) s .f32 0x45800000#32)) i
      = Cert.Fwht.scale :=
  div_sqrt_eq_scale

end Cert.Fwht.Consts

end
-- ==== Proof.RefTail.lean ====
/-
  What the reference does after its twelve passes, read at one entry `(b, s, o)`: it multiplies the
  transformed activations by the scalar 1 / sqrt 4096 broadcast to the whole array, contracts with the
  weight over `d`, and adds the bias broadcast along the first two axes.  At the entry this is

      ∑ d, (X (b, s, d) * scale) * W (o, d)  +  bias o,

  with the products grouped exactly as written.
-/
import proofs.«179667_j39986145526404_1_alg».proof.Proof.RefDot
import proofs.«179667_j39986145526404_1_alg».proof.Proof.RefConsts
import Idealize.ShloMosaic.Lib.IdealHost
import Idealize.ShloMosaic.Lib.Pipeline.Value

noncomputable section

open scoped BigOperators

namespace Cert.ReferenceIdeal.RefTail

open Idealize.ShloMosaic Idealize.ShloMosaic.ValueIdx Cert.ReferenceIdeal Cert.ReferenceIdeal.Gen

/-- The bias, broadcast first to [1, 1, 4096] and then to the whole array, read at `(b, s, o)` is `bias o`. -/
theorem bias_apply (B : FVec Ideal S4096 .f32) (b : Fin 4) (s : Fin 2048) (o : Fin 4096) :
    broadcastInDim S4x2048x4096 ![0, 1, 2] bcast_S1x1x4096_S4x2048x4096_0_1_2
      (broadcastInDim S1x1x4096 ![2] bcast_S4096_S1x1x4096_2 B) (ix3 b s o) = B (ix1 o) := by
  rw [broadcastInDim_apply ![0, 1, 2] bcast_S1x1x4096_S4x2048x4096_0_1_2 _ (ix3 b s o) (ix3 (0 : Fin 1) (0 : Fin 1) o)
      (fun a => by match a with | ⟨0, _⟩ => rfl | ⟨1, _⟩ => rfl | ⟨2, _⟩ => rfl),
    broadcastInDim_apply ![2] bcast_S4096_S1x1x4096_2 B (ix3 (0 : Fin 1) (0 : Fin 1) o) (ix1 o)
      (fun a => by match a with | ⟨0, _⟩ => rfl)]

/-- The reference's last operations at one entry. -/
theorem tail_apply (X : FVec Ideal S4x2048x4096 .f32) (W : FVec Ideal S4096x4096 .f32) (B : FVec Ideal S4096 .f32)
    (b : Fin 4) (s : Fin 2048) (o : Fin 4096) :
    addf (Host.dotGeneral dot_S4x2048x4096_S4096x4096_S4x2048x4096_2_1_01_0_n_n none
        (mulf X (broadcastInDim S4x2048x4096 ![] bcast_S_S4x2048x4096
          (Host.divf (constant (F := Ideal) S_ .f32 0x3F800000#32) (Host.sqrt (constant (F := Ideal) S_ .f32 0x45800000#32))))) W)
      (broadcastInDim S4x2048x4096 ![0, 1, 2] bcast_S1x1x4096_S4x2048x4096_0_1_2
        (broadcastInDim S1x1x4096 ![2] bcast_S4096_S1x1x4096_2 B)) (ix3 b s o)
      = (∑ d : Fin 4096, (X (ix3 b s d) * Cert.Fwht.scale) * W (ix2 o d)) + B (ix1 o) := by
  rw [addf_apply, RefDot.dot_apply, bias_apply]
  congr 1
  refine Finset.sum_congr rfl fun d _ => ?_
  rw [mulf_apply, broadcastInDim_scalar_apply, Cert.Fwht.Consts.scale_eq]

end Cert.ReferenceIdeal.RefTail

end
-- ==== Proof.RefValue.lean ====
/-
  The reference's run read as the specification: on every device the result array ends at
  `Cert.Fwht.result` of the three argument arrays, entry by entry, and the arguments end unchanged.  The
  twelve passes are the transform of every row, the scalar 1 / sqrt 4096 is the scale, and the product
  with the weight and the bias are the sum the specification writes, in its grouping.
-/
import proofs.«179667_j39986145526404_1_alg».proof.Proof.RefSplit
import proofs.«179667_j39986145526404_1_alg».proof.Proof.RefEnds
import proofs.«179667_j39986145526404_1_alg».proof.Proof.RefTail

noncomputable section

namespace Cert.ReferenceIdeal.RefValue

open Idealize.ShloMosaic Idealize.SL.Sem Cert.ReferenceIdeal
open Idealize.ShloMosaic.ValueIdx Idealize.ShloMosaic.StableHlo Idealize.ShloMosaic.TcCoe
open Cert.ReferenceIdeal.Gen Cert.ReferenceIdeal.RefOps Cert.ReferenceIdeal.RefPasses Cert.ReferenceIdeal.RefEnds

/-- The result buffer after all the operations is the specification's result of the argument arrays. -/
theorem value_eq (V0 : Valuation τ sig (Elt Ideal)) :
    Eq (α := FVec Ideal S4x2048x4096 .f32) (after (ValueP.ops (F := Ideal)) V0 (Proc.devRef .tc main_v139))
      (Cert.Fwht.result (V0 (Proc.devRef .tc main_arg0)) (V0 (Proc.devRef .tc main_arg1)) (V0 (Proc.devRef .tc main_arg2))) := by
  rw [RefSplit.ops_split, after_append, after_append, tail_out, passes_out, passes_keep_main_v1, passes_keep_main_arg1,
    passes_keep_main_arg2, head_out, head_keep_main_arg0, head_keep_main_arg1, head_keep_main_arg2]
  funext i
  obtain ⟨b, s, o, rfl⟩ : ∃ (b : Fin 4) (s : Fin 2048) (o : Fin 4096), i = ix3 b s o := ⟨i 0, i 1, i 2, eq_ix3 i⟩
  rw [RefTail.tail_apply]
  simp only [RefChain.chain_apply]
  rfl

/-- No operation writes the argument `main_arg0`. -/
theorem keep_main_arg0 (V0 : Valuation τ sig (Elt Ideal)) :
    after (ValueP.ops (F := Ideal)) V0 (Proc.devRef .tc main_arg0) = V0 (Proc.devRef .tc main_arg0) := by
  rw [RefSplit.ops_split, after_append, after_append, tail_keep_main_arg0, passes_keep_main_arg0, head_keep_main_arg0]

/-- No operation writes the argument `main_arg1`. -/
theorem keep_main_arg1 (V0 : Valuation τ sig (Elt Ideal)) :
    after (ValueP.ops (F := Ideal)) V0 (Proc.devRef .tc main_arg1) = V0 (Proc.devRef .tc main_arg1) := by
  rw [RefSplit.ops_split, after_append, after_append, tail_keep_main_arg1, passes_keep_main_arg1, head_keep_main_arg1]

/-- No operation writes the argument `main_arg2`. -/
theorem keep_main_arg2 (V0 : Valuation τ sig (Elt Ideal)) :
    after (ValueP.ops (F := Ideal)) V0 (Proc.devRef .tc main_arg2) = V0 (Proc.devRef .tc main_arg2) := by
  rw [RefSplit.ops_split, after_append, after_append, tail_keep_main_arg2, passes_keep_main_arg2, head_keep_main_arg2]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v139) = Cert.Fwht.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v139).trans (value_eq (launchContents m c)),
      (h c main_arg0).trans (keep_main_arg0 (launchContents m c)),
      (h c main_arg1).trans (keep_main_arg1 (launchContents m c)),
      (h c main_arg2).trans (keep_main_arg2 (launchContents m c))⟩)
    (ValueP.run_after (F := Ideal) m ρ)

end Cert.ReferenceIdeal.RefValue

end
-- ==== Proof.lean ====
/-
  The claim: the kernel and the reference compute one function on the extended reals.

  Both take activations [4, 2048, 4096], a weight [4096, 4096] and a bias [4096].  On every row of 4096
  activations both apply the Walsh–Hadamard transform as twelve butterfly passes of half-widths 1, 2, 4, …, 2048
  (entry `d` becomes `f d + f (d + H)` where bit `H` of `d` is clear and `f (d - H) - f d` where it is set), multiply
  by 1/64 — the kernel by the float word of 1/64, the reference by `1 / sqrt 4096`, and the square root of the real
  4096 is 64 —, and form, for every output column `o`, the sum over `d` of the scaled row times row `o` of the weight,
  plus `bias o`.  The kernel spells a pass with cyclic shifts of the row and a select on bit `H` of the lane number
  (Proof/KernelStage.lean), the reference with a reshape into `4096 / (2 H)` pairs of halves of width `H`, two slices,
  a sum, a difference, a concatenation and a reshape back (Proof/RefStage.lean); either way it is the pass of
  Proof/Spec.lean on each row.  The products and sums are the same and in the same order on both sides, changes of
  float format are the identity on the extended reals, so the two results agree entry by entry and no input needs to
  be finite: the precondition is not used.

  The kernel's side (Proof/KernelPayload.lean: one grid point's block; Proof/KernelArrayBlocks.lean: the 256 blocks
  of 32 rows tile the output; Proof/KernelArrayHost.lean, Proof/KernelArray.lean: the layout changes around the
  grid) and the reference's side (Proof/RefRun.lean: its run as the fold of its 142 operations; Proof/RefOps.lean,
  Proof/RefSplit.lean: that list as four operations, twelve passes of eleven, six operations; Proof/RefPass0.lean …
  Proof/RefPass5.lean, Proof/RefPasses.lean, Proof/RefChain.lean: the twelve passes; Proof/RefEnds.lean,
  Proof/RefConsts.lean, Proof/RefDot.lean, Proof/RefTail.lean: the scale, the product and the bias;
  Proof/RefValue.lean) each end in a statement that every run leaves the result array at `Cert.Fwht.result` of the
  three arguments.
-/
import proofs.«179667_j39986145526404_1_alg».proof.Defs
import proofs.«179667_j39986145526404_1_alg».proof.Proof.Gen.Kernel
import proofs.«179667_j39986145526404_1_alg».proof.Proof.Gen.Kernel.Skeleton
import proofs.«179667_j39986145526404_1_alg».proof.Proof.Gen.Kernel.Launch
import proofs.«179667_j39986145526404_1_alg».proof.Proof.Gen.Kernel.Points
import proofs.«179667_j39986145526404_1_alg».proof.Proof.Gen.Kernel.Frame
import proofs.«179667_j39986145526404_1_alg».proof.Proof.Gen.KernelIdeal
import proofs.«179667_j39986145526404_1_alg».proof.Proof.Gen.KernelIdeal.Skeleton
import proofs.«179667_j39986145526404_1_alg».proof.Proof.Gen.KernelIdeal.Launch
import proofs.«179667_j39986145526404_1_alg».proof.Proof.Gen.KernelIdeal.Points
import proofs.«179667_j39986145526404_1_alg».proof.Proof.Gen.KernelIdeal.Frame
import proofs.«179667_j39986145526404_1_alg».proof.Proof.Gen.ReferenceIdeal
import proofs.«179667_j39986145526404_1_alg».proof.Proof.Gen.Pre_finite_inputs
import proofs.«179667_j39986145526404_1_alg».proof.Proof.KernelArray
import proofs.«179667_j39986145526404_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel :=
  fun m ρ _ => Cert.Kernel.Gen.frame m ρ

/-- So does the kernel read on the extended reals. -/
theorem frame_kernelIdeal : Cert.frame_KernelIdeal :=
  fun m ρ _ => Cert.KernelIdeal.Gen.frame m ρ

/-- The reference runs and keeps its arguments: its run read as a value, the result dropped. -/
theorem frame_reference : Cert.frame_ReferenceIdeal :=
  fun m ρ _ => (θ_run Cert.ReferenceIdeal.defs _ _).mono (fun _ h c => (h c).2)
    (Cert.ReferenceIdeal.RefValue.run m ρ)

/-- From memories that agree on the three arguments both programs end with their result arrays at the one function
    of the arguments, `Cert.Fwht.result`. -/
theorem algebraic : Cert.algebraic_KernelIdeal_ReferenceIdeal := by
  intro m ρ m' ρ' _ hagree
  refine ⟨fun c => Cert.Fwht.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨?_, (h c).2⟩)
    (Cert.ReferenceIdeal.RefValue.run m' ρ')
  rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
